-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) (main_arg1 : FVec F S32x512x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S32x512x768 .f32 := Host.absf main_arg1
  let main_cst_0 : FVec F S_ .f32 := constant S_ .f32 0x7F800000#32
  let main_v5 : FVec F S32x512x768 .f32 := broadcastInDim S32x512x768 ![] bcast_S_S32x512x768 main_cst_0
  let main_v6 : IVec S32x512x768 1 := cmpf .olt main_v4 main_v5
  let main_c_1 : IVec S_ 1 := constantI S_ 1 1#1
  let main_v7 : IVec S_ 1 := (fun x v => Host.reduce IntOp.andi x v reducesTo_S32x512x768_S_d0_1_2 h_S_) main_v6 main_c_1
  let main_v8 : IVec S_ 1 := andi main_v3 main_v7
  main_v8
-- ==== Kernel.lean ====
abbrev S32x512x768 : Shape := ⟨3, ![32, 512, 768]⟩
abbrev S32x512x3072 : Shape := ⟨3, ![32, 512, 3072]⟩
abbrev S1x512x768 : Shape := ⟨3, ![1, 512, 768]⟩
abbrev S1x128x3072 : Shape := ⟨3, ![1, 128, 3072]⟩
abbrev S512x768 : Shape := ⟨2, ![512, 768]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S128x768 : Shape := ⟨2, ![128, 768]⟩
abbrev S512x128 : Shape := ⟨2, ![512, 128]⟩
abbrev S128x512 : Shape := ⟨2, ![128, 512]⟩
abbrev S128x3072 : Shape := ⟨2, ![128, 3072]⟩

abbrev nBuf : Space → Nat
  | .hbm => 4
  | .vmem => 12
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S32x512x3072, .f32⟩
  | .hbm, ⟨3, _⟩ => ⟨S32x512x3072, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x128x3072, .f32⟩
  | .local _ .vmem, ⟨5, _⟩ => ⟨S1x128x3072, .f32⟩
  | .local _ .vmem, ⟨6, _⟩ => ⟨S1x128x3072, .f32⟩
  | .local _ .vmem, ⟨7, _⟩ => ⟨S1x128x3072, .f32⟩
  | .local _ .vmem, ⟨8, _⟩ => ⟨S512x768, .bf16⟩
  | .local _ .vmem, ⟨9, _⟩ => ⟨S512x768, .bf16⟩
  | .local _ .vmem, ⟨10, _⟩ => ⟨S512x512, .bf16⟩
  | .local _ .vmem, ⟨11, _⟩ => ⟨S512x512, .bf16⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v7 : Index := Scalar.indexCast v4
  let c0 : Index := 0#32
  ![v7.toNat, 0]
def k0_off2 (i : grid0.Coords) : Fin 2 → Nat :=
  let c0_8 : Index := 0#32
  let arg1 : BitVec 32 := BitVec.ofNat 32 (i 1).val
  let c128_i32 : BitVec 32 := 128#32
  let v3 : BitVec 32 := Scalar.muli arg1 c128_i32
  let v4 : BitVec 32 := v3
  let v13 : Index := Scalar.indexCast v4
  ![0, v13.toNat]
def k0_off3 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v15 : Index := Scalar.indexCast v4
  let c0_9 : Index := 0#32
  ![v15.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  packedbf16_S512x768_S512x768_0_0 : (Rect.unit (s := S512x768) ![0, 0] S512x768.size inb_S512x768_S512x768_0_0).PackedRows (EltTy.packing .bf16)
  reduces_S512x512_S512 : S512x512.Reduces [0] S512
  shapeCasts_S512_S1x512 : S512.ShapeCasts S1x512
  broadcasts_S1x512_S512x512 : S1x512.Broadcasts S512x512
  reduces_S512x512_S512_2 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  squeezes_S1x512x768_S512x768 : S1x512x768.Squeezes S512x768
  h_S128x768 : 0 < S128x768.numel
  h_S512x128 : 0 < S512x128.numel
  h_S128x512 : 0 < S128x512.numel
  concatenates_S128x768_S128x768_S128x768_S128x768_S128x3072_d1 : Shape.Concatenates [S128x768, S128x768, S128x768, S128x768] S128x3072 1
  inb_S1x128x3072_S1x128x3072_0_0_0 : ∀ a, (![0, 0, 0] : Fin 3 → Nat) a + S1x128x3072.size a ≤ S1x128x3072.size a
  h_S1x128x3072 : 0 < S1x128x3072.numel
  shapeCasts_S1x128x3072_S128x3072 : S1x128x3072.ShapeCasts S128x3072
  shapeCasts_S128x3072_S1x128x3072 : S128x3072.ShapeCasts S1x128x3072
  dot_S512x768_S512x768_S512x512_1_1_0_0_n_n_wf : DotDims.WF S512x768 S512x768 S512x512 [1] [1] [0] [0] [] []
  dot_S128x512_S512x768_S128x768_1_0_0_1_n_n_wf : DotDims.WF S128x512 S512x768 S128x768 [1] [0] [0] [1] [] []
  dot_S512x128_S512x768_S128x768_0_0_1_1_n_n_wf : DotDims.WF S512x128 S512x768 S128x768 [0] [0] [1] [1] [] []
  hrank0 : 0 < grid0.rank
  k0_mult1_dvd : ∀ i : grid0.Coords, 128 ∣ (k0_mult1 i).toNat
  k0_off1_inb : ∀ i : grid0.Coords, ∀ a, (k0_off1 i) a + S128x768.size a ≤ S512x768.size a
  k0_off2_inb : ∀ i : grid0.Coords, ∀ a, (k0_off2 i) a + S512x128.size a ≤ S512x512.size a
  k0_off3_inb : ∀ i : grid0.Coords, ∀ a, (k0_off3 i) a + S128x512.size a ≤ S512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S32x512x768.size a
  hwx0_0 : ∀ i : grid0.Coords, EltTy.bits .f32 = 32 ∨ (Rect.block (s := S32x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S32x512x768.size a
  hwx0_1 : ∀ i : grid0.Coords, EltTy.bits .f32 = 32 ∨ (Rect.block (s := S32x512x768) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3072.size a ≤ S32x512x3072.size a
  hwx0_2 : ∀ i : grid0.Coords, EltTy.bits .f32 = 32 ∨ (Rect.block (s := S32x512x3072) S1x128x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x3072.size a ≤ S32x512x3072.size a
  hwx0_3 : ∀ i : grid0.Coords, EltTy.bits .f32 = 32 ∨ (Rect.block (s := S32x512x3072) S1x128x3072.size (cc0_transform_3 i) (hinb0_3 i)).WholeWords (EltTy.packing .f32)

variable [Facts₀]

def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S128x512_S512x768_S128x768_1_0_0_1_n_n : DotDims S128x512 S512x768 S128x768 where
  lhsContracting := [1]
  rhsContracting := [0]
  lhsNonContracting := [0]
  rhsNonContracting := [1]
  lhsBatch := []
  rhsBatch := []
  wf := dot_S128x512_S512x768_S128x768_1_0_0_1_n_n_wf
def dot_S512x128_S512x768_S128x768_0_0_1_1_n_n : DotDims S512x128 S512x768 S128x768 where
  lhsContracting := [0]
  rhsContracting := [0]
  lhsNonContracting := [1]
  rhsNonContracting := [1]
  lhsBatch := []
  rhsBatch := []
  wf := dot_S512x128_S512x768_S128x768_0_0_1_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x3072.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x512x512 : Shape := ⟨3, ![32, 512, 512]⟩
abbrev S_ : Shape := ⟨0, ![]⟩
abbrev S32x512 : Shape := ⟨2, ![32, 512]⟩
abbrev S32x1x512 : Shape := ⟨3, ![32, 1, 512]⟩
abbrev S32x512x1 : Shape := ⟨3, ![32, 512, 1]⟩
abbrev S32x512x3072 : Shape := ⟨3, ![32, 512, 3072]⟩

abbrev nBuf : Space → Nat
  | .hbm => 39
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S32x512x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x1x512, .f32⟩
  | .hbm, ⟨9, _⟩ => ⟨S32x512x512, .f32⟩
  | .hbm, ⟨10, _⟩ => ⟨S32x512x512, .f32⟩
  | .hbm, ⟨11, _⟩ => ⟨S32x512x512, .f32⟩
  | .hbm, ⟨12, _⟩ => ⟨S_, .f32⟩
  | .hbm, ⟨13, _⟩ => ⟨S32x512, .f32⟩
  | .hbm, ⟨14, _⟩ => ⟨S32x1x512, .f32⟩
  | .hbm, ⟨15, _⟩ => ⟨S32x512x512, .f32⟩
  | .hbm, ⟨16, _⟩ => ⟨S32x512x512, .f32⟩
  | .hbm, ⟨17, _⟩ => ⟨S_, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x512x1, .f32⟩
  | .hbm, ⟨23, _⟩ => ⟨S32x512x512, .f32⟩
  | .hbm, ⟨24, _⟩ => ⟨S32x512x512, .f32⟩
  | .hbm, ⟨25, _⟩ => ⟨S32x512x512, .f32⟩
  | .hbm, ⟨26, _⟩ => ⟨S_, .f32⟩
  | .hbm, ⟨27, _⟩ => ⟨S32x512, .f32⟩
  | .hbm, ⟨28, _⟩ => ⟨S32x512x1, .f32⟩
  | .hbm, ⟨29, _⟩ => ⟨S32x512x512, .f32⟩
  | .hbm, ⟨30, _⟩ => ⟨S32x512x512, .f32⟩
  | .hbm, ⟨31, _⟩ => ⟨S32x512x768, .f32⟩
  | .hbm, ⟨32, _⟩ => ⟨S32x512x768, .f32⟩
  | .hbm, ⟨33, _⟩ => ⟨S32x512x768, .f32⟩
  | .hbm, ⟨34, _⟩ => ⟨S32x512x768, .f32⟩
  | .hbm, ⟨35, _⟩ => ⟨S32x512x3072, .f32⟩
  | .hbm, ⟨36, _⟩ => ⟨S32x512x768, .f32⟩
  | .hbm, ⟨37, _⟩ => ⟨S32x512x768, .f32⟩
  | .hbm, ⟨38, _⟩ => ⟨S32x512x3072, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  reducesTo_S32x512x512_S32x512_d1 : S32x512x512.ReducesTo [1] S32x512
  h_S_ : 0 < S_.numel
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  reducesTo_S32x512x512_S32x512_d2 : S32x512x512.ReducesTo [2] S32x512
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  concatenates_S32x512x768_S32x512x768_S32x512x768_S32x512x768_S32x512x3072_d2 : Shape.Concatenates [S32x512x768, S32x512x768, S32x512x768, S32x512x768] S32x512x3072 2
  dot_S32x512x768_S32x512x768_S32x512x512_2_2_1_1_0_0_wf : DotDims.WF S32x512x768 S32x512x768 S32x512x512 [2] [2] [1] [1] [0] [0]
  dot_S32x512x512_S32x512x768_S32x512x768_1_1_2_2_0_0_wf : DotDims.WF S32x512x512 S32x512x768 S32x512x768 [1] [1] [2] [2] [0] [0]
  dot_S32x512x512_S32x512x768_S32x512x768_2_1_1_2_0_0_wf : DotDims.WF S32x512x512 S32x512x768 S32x512x768 [2] [1] [1] [2] [0] [0]

variable [Facts₀]

def dot_S32x512x768_S32x512x768_S32x512x512_2_2_1_1_0_0 : DotDims S32x512x768 S32x512x768 S32x512x512 where
  lhsContracting := [2]
  rhsContracting := [2]
  lhsNonContracting := [1]
  rhsNonContracting := [1]
  lhsBatch := [0]
  rhsBatch := [0]
  wf := dot_S32x512x768_S32x512x768_S32x512x512_2_2_1_1_0_0_wf
def dot_S32x512x512_S32x512x768_S32x512x768_1_1_2_2_0_0 : DotDims S32x512x512 S32x512x768 S32x512x768 where
  lhsContracting := [1]
  rhsContracting := [1]
  lhsNonContracting := [2]
  rhsNonContracting := [2]
  lhsBatch := [0]
  rhsBatch := [0]
  wf := dot_S32x512x512_S32x512x768_S32x512x768_1_1_2_2_0_0_wf
def dot_S32x512x512_S32x512x768_S32x512x768_2_1_1_2_0_0 : DotDims S32x512x512 S32x512x768 S32x512x768 where
  lhsContracting := [2]
  rhsContracting := [1]
  lhsNonContracting := [1]
  rhsNonContracting := [2]
  lhsBatch := [0]
  rhsBatch := [0]
  wf := dot_S32x512x512_S32x512x768_S32x512x768_2_1_1_2_0_0_wf

class Facts : Prop extends Facts₀ where

variable [Facts]
-- ==== Proof.KernelRunB.lean ====
/-
  One grid point of the fused attention kernel. The grid is (batch, tile): the first tile of a batch
  casts the batch's two input blocks, forms the 512 x 512 logits, both softmaxes, and keeps all four
  in scratch arrays; every tile then reads a 128-row band of the inputs and of the kept weights and
  stores one 128 x 3072 tile of each output.

  This module fixes the names the body's runs are stated over — the condition "first tile of its
  batch" in closed form, the staging and scratch memrefs, the region invariant with the four scratch
  arrays named — and runs the body at a tile that is NOT the first of its batch: nothing is stored
  into scratch, the inputs and the scratch arrays are read and handed back as they were, and each
  output's buffer ends with the pieces the two stores wrote.
-/
import proofs.«120919_j15779709846002_2_alg».proof.Proof.Gen.Kernel.Frame
import proofs.«120919_j15779709846002_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first tile of a batch -/

/-- The body's one branch condition, from the grid coordinates: the tile coordinate is zero. -/
abbrev cond0 (i : grid0.Coords) : Prop := (Scalar.cmpi .ne (Scalar.extui (Scalar.cmpi .eq (BitVec.ofNat 32 (i 1).val) 0#32)) 0#32) = 1#1
/-- The grid is 32 batches of 4 tiles in row-major order, so it holds exactly at the points divisible by 4. -/
theorem hcond0 : ∀ t : Fin cfg0.N, cond0 (grid0.coords t) ↔ t.val % 4 = 0 :=
  (by decide +kernel : ∀ t : Fin grid0.N, cond0 (grid0.coords t) ↔ t.val % 4 = 0)

/-! ## The memrefs the body is called with -/

abbrev ms0 (t : Fin cfg0.N) : Memref sig .tc .vmem S1x512x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x3072 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x3072 .f32 := win0_3.stage (cfg0.slots t 3)
abbrev hs3 (t : Fin cfg0.N) : (ms3 t).IsWhole := hstage0_3 ((cfg0.slots t 3).cast nbuf0_3)
/-- The four scratch arrays: the two inputs of the batch cast to bf16, and the two softmaxes of its logits. -/
abbrev sc0 : Memref sig .tc .vmem S512x768 .bf16 := Memref.whole cc0_scratch0
abbrev sc1 : Memref sig .tc .vmem S512x768 .bf16 := Memref.whole cc0_scratch1
abbrev sc2 : Memref sig .tc .vmem S512x512 .bf16 := Memref.whole cc0_scratch2
abbrev sc3 : Memref sig .tc .vmem S512x512 .bf16 := Memref.whole cc0_scratch3

/-- The region's invariant when nothing is known of the scratch: each of the four at some contents, and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The body at a later tile of a batch -/

set_option maxHeartbeats 4000000 in
/-- At a tile that is not the first of its batch: from the inputs' buffers at `x0`, `x1`, the outputs' at anything and the
    scratch arrays at `xs0 … xs3`, the body runs to the end with the inputs and the scratch as they were and each output's
    buffer overwritten by the pieces its store wrote (found by the run). -/
noncomputable def runB (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i)
    (x0 x1 : Vec F S1x512x768 .f32) (xs0 xs1 : Vec F S512x768 .bf16) (xs2 xs3 : Vec F S512x512 .bf16) :
    Σ' (L2 : List (View.Piece (Elt F) S1x128x3072 .f32)), { L3 : List (View.Piece (Elt F) S1x128x3072 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ owns (c : Thread nD τ) arg8 fullShare xs2 ∗ owns (c : Thread nD τ) arg9 fullShare xs3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1
                ∗ owns (c : Thread nD τ) arg8 fullShare xs2 ∗ owns (c : Thread nD τ) arg9 fullShare xs3) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9) K } := by
  refine ⟨?_, ?_, fun E K => ?run⟩
  case run =>
    simp only [cc0_fused_kernel_eq_skeleton]; unfold cc0_fused_kernel_skel
    unfold owns
    iintro ⟨⟨%f0, %hf0, H0⟩, ⟨%f1, %hf1, H1⟩, ⟨%d2, %f2, -, H2⟩, ⟨%d3, %f3, -, H3⟩, ⟨%g0, %hg0, HS0⟩, ⟨%g1, %hg1, HS1⟩, ⟨%g2, %hg2, HS2⟩, ⟨%g3, %hg3, HS3⟩, Hk⟩
    obtain rfl := harg2.eq_unread hf0; obtain rfl := harg3.eq_unread hf1
    obtain rfl := harg6.eq_unread hg0; obtain rfl := harg7.eq_unread hg1
    obtain rfl := harg8.eq_unread hg2; obtain rfl := harg9.eq_unread hg3
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    isplitl [HS2]
    · iexists _; isplitr; · ipureintro; exact harg8.read_unread _
      iexact HS2
    iexists _; isplitr; · ipureintro; exact harg9.read_unread _
    iexact HS3

end Cert.Kernel.Body

end
-- ==== Proof.KernelRunA.lean ====
/-
  The body of the fused attention kernel at the FIRST tile of a batch: the branch is taken, so the two input blocks
  are cast and kept, the logits and their two softmaxes are formed and kept, and then — as at every tile — a 128-row
  band of the inputs and of the weights just stored is read back and one tile of each output is stored.
  Nothing is assumed of what the four scratch arrays held before: the body reads each only as part of overwriting
  it, and what it read is not used.
-/
import proofs.«120919_j15779709846002_2_alg».proof.Proof.KernelRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- At the first tile of a batch: from the inputs' buffers at `x0`, `x1` and every other buffer at anything, the body runs
    to the end with the inputs as they were, and each output's and each scratch array's buffer overwritten by the pieces
    its stores wrote (found by the run: outputs first, then the four scratch arrays). -/
noncomputable def runA (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i)
    (x0 x1 : Vec F S1x512x768 .f32) :
    Σ' (L2 : List (View.Piece (Elt F) S1x128x3072 .f32)) (L3 : List (View.Piece (Elt F) S1x128x3072 .f32))
       (LS0 : List (View.Piece (Elt F) S512x768 .bf16)) (LS1 : List (View.Piece (Elt F) S512x768 .bf16))
       (LS2 : List (View.Piece (Elt F) S512x512 .bf16)), { LS3 : List (View.Piece (Elt F) S512x512 .bf16) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_fused_kernel_eq_skeleton]; unfold cc0_fused_kernel_skel
    unfold owns
    iintro ⟨⟨%f0, %hf0, H0⟩, ⟨%f1, %hf1, H1⟩, ⟨%d2, %f2, -, H2⟩, ⟨%d3, %f3, -, H3⟩, ⟨%e0, %g0, -, HS0⟩, ⟨%e1, %g1, -, HS1⟩, ⟨%e2, %g2, -, HS2⟩, ⟨%e3, %g3, -, HS3⟩, Hk⟩
    obtain rfl := harg2.eq_unread hf0; obtain rfl := harg3.eq_unread hf1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexists _; iexact HS3

end Cert.Kernel.Body

end
-- ==== Proof.KernelFrame.lean ====
/-
  The frame of the fused attention kernel: it runs to the end at every grid point, faults nowhere, and leaves
  its two argument arrays as they were.

  The four scratch arrays are carried from the first tile of a batch to its three later tiles, so the region's
  invariant is stated point by point: before the very first point the scratch holds anything; after a point it
  holds what the first tile of that point's batch stored — named here as the pieces that tile's stores wrote,
  read back. What the outputs' buffers and the scratch arrays hold after each point is one function defined by
  recursion on the point: a first tile computes all six from the batch's two input blocks; a later tile computes
  the two outputs from the blocks and the scratch the point before left, and leaves the scratch as it found it.
-/
import proofs.«120919_j15779709846002_2_alg».proof.Proof.KernelRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Views through which the buffers' contents are stated -/

abbrev VO2 : View sig .tc .vmem S1x128x3072 .f32 := (Memref.whole cc0_stg2_0 : Memref sig .tc .vmem S1x128x3072 .f32).view
abbrev VO3 : View sig .tc .vmem S1x128x3072 .f32 := (Memref.whole cc0_stg3_0 : Memref sig .tc .vmem S1x128x3072 .f32).view
abbrev VS0 : View sig .tc .vmem S512x768 .bf16 := sc0.view
abbrev VS1 : View sig .tc .vmem S512x768 .bf16 := sc1.view
abbrev VS2 : View sig .tc .vmem S512x512 .bf16 := sc2.view
abbrev VS3 : View sig .tc .vmem S512x512 .bf16 := sc3.view

/-! ## Every store covers its buffer, so what a buffer holds afterwards is its pieces read back -/

theorem coverB_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) (y : S1x128x3072.Idx) : ∃ pc ∈ (runB c i arg2 harg2 arg3 harg3 arg4 harg4 arg5 harg5 arg6 harg6 arg7 harg7 arg8 harg8 arg9 harg9 hc0 x0 x1 xs0 xs1 xs2 xs3).1, y ∈ pc.1.set :=
  View.cover_of_tiledL (runB c i arg2 harg2 arg3 harg3 arg4 harg4 arg5 harg5 arg6 harg6 arg7 harg7 arg8 harg8 arg9 harg9 hc0 x0 x1 xs0 xs1 xs2 xs3).1 S1x128x3072.size (by sl_kernel_rfl) y
theorem coverB_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) (y : S1x128x3072.Idx) : ∃ pc ∈ (runB c i arg2 harg2 arg3 harg3 arg4 harg4 arg5 harg5 arg6 harg6 arg7 harg7 arg8 harg8 arg9 harg9 hc0 x0 x1 xs0 xs1 xs2 xs3).2.1, y ∈ pc.1.set :=
  View.cover_of_tiledL (runB c i arg2 harg2 arg3 harg3 arg4 harg4 arg5 harg5 arg6 harg6 arg7 harg7 arg8 harg8 arg9 harg9 hc0 x0 x1 xs0 xs1 xs2 xs3).2.1 S1x128x3072.size (by sl_kernel_rfl) y
theorem coverA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S1x128x3072.Idx) : ∃ pc ∈ (runA c i arg2 harg2 arg3 harg3 arg4 harg4 arg5 harg5 arg6 harg6 arg7 harg7 arg8 harg8 arg9 harg9 hc0 x0 x1).1, y ∈ pc.1.set :=
  View.cover_of_tiledL (runA c i arg2 harg2 arg3 harg3 arg4 harg4 arg5 harg5 arg6 harg6 arg7 harg7 arg8 harg8 arg9 harg9 hc0 x0 x1).1 S1x128x3072.size (by sl_kernel_rfl) y
theorem coverA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S1x128x3072.Idx) : ∃ pc ∈ (runA c i arg2 harg2 arg3 harg3 arg4 harg4 arg5 harg5 arg6 harg6 arg7 harg7 arg8 harg8 arg9 harg9 hc0 x0 x1).2.1, y ∈ pc.1.set :=
  View.cover_of_tiledL (runA c i arg2 harg2 arg3 harg3 arg4 harg4 arg5 harg5 arg6 harg6 arg7 harg7 arg8 harg8 arg9 harg9 hc0 x0 x1).2.1 S1x128x3072.size (by sl_kernel_rfl) y
theorem scoverA_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x768.Idx) : ∃ pc ∈ (runA c i arg2 harg2 arg3 harg3 arg4 harg4 arg5 harg5 arg6 harg6 arg7 harg7 arg8 harg8 arg9 harg9 hc0 x0 x1).2.2.1, y ∈ pc.1.set :=
  View.cover_of_tiledL (runA c i arg2 harg2 arg3 harg3 arg4 harg4 arg5 harg5 arg6 harg6 arg7 harg7 arg8 harg8 arg9 harg9 hc0 x0 x1).2.2.1 S512x768.size (by sl_kernel_rfl) y
theorem scoverA_1 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x768.Idx) : ∃ pc ∈ (runA c i arg2 harg2 arg3 harg3 arg4 harg4 arg5 harg5 arg6 harg6 arg7 harg7 arg8 harg8 arg9 harg9 hc0 x0 x1).2.2.2.1, y ∈ pc.1.set :=
  View.cover_of_tiledL (runA c i arg2 harg2 arg3 harg3 arg4 harg4 arg5 harg5 arg6 harg6 arg7 harg7 arg8 harg8 arg9 harg9 hc0 x0 x1).2.2.2.1 S512x768.size (by sl_kernel_rfl) y
theorem scoverA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x512.Idx) : ∃ pc ∈ (runA c i arg2 harg2 arg3 harg3 arg4 harg4 arg5 harg5 arg6 harg6 arg7 harg7 arg8 harg8 arg9 harg9 hc0 x0 x1).2.2.2.2.1, y ∈ pc.1.set :=
  View.cover_of_tiledL (runA c i arg2 harg2 arg3 harg3 arg4 harg4 arg5 harg5 arg6 harg6 arg7 harg7 arg8 harg8 arg9 harg9 hc0 x0 x1).2.2.2.2.1 S512x512.size (by sl_kernel_rfl) y
theorem scoverA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x512.Idx) : ∃ pc ∈ (runA c i arg2 harg2 arg3 harg3 arg4 harg4 arg5 harg5 arg6 harg6 arg7 harg7 arg8 harg8 arg9 harg9 hc0 x0 x1).2.2.2.2.2.1, y ∈ pc.1.set :=
  View.cover_of_tiledL (runA c i arg2 harg2 arg3 harg3 arg4 harg4 arg5 harg5 arg6 harg6 arg7 harg7 arg8 harg8 arg9 harg9 hc0 x0 x1).2.2.2.2.2.1 S512x512.size (by sl_kernel_rfl) y

/-- What a later tile leaves in the first output's buffer, and in the second's. -/
def outB_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) : Vec F S1x128x3072 .f32 := VO2.read (Elt F) (VO2.writes (Elt F) VO2.junk (runB c i arg2 harg2 arg3 harg3 arg4 harg4 arg5 harg5 arg6 harg6 arg7 harg7 arg8 harg8 arg9 harg9 hc0 x0 x1 xs0 xs1 xs2 xs3).1)
def outB_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) : Vec F S1x128x3072 .f32 := VO3.read (Elt F) (VO3.writes (Elt F) VO3.junk (runB c i arg2 harg2 arg3 harg3 arg4 harg4 arg5 harg5 arg6 harg6 arg7 harg7 arg8 harg8 arg9 harg9 hc0 x0 x1 xs0 xs1 xs2 xs3).2.1)
/-- What a first tile leaves in the two outputs' buffers and in the four scratch arrays. -/
def outA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S1x128x3072 .f32 := VO2.read (Elt F) (VO2.writes (Elt F) VO2.junk (runA c i arg2 harg2 arg3 harg3 arg4 harg4 arg5 harg5 arg6 harg6 arg7 harg7 arg8 harg8 arg9 harg9 hc0 x0 x1).1)
def outA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S1x128x3072 .f32 := VO3.read (Elt F) (VO3.writes (Elt F) VO3.junk (runA c i arg2 harg2 arg3 harg3 arg4 harg4 arg5 harg5 arg6 harg6 arg7 harg7 arg8 harg8 arg9 harg9 hc0 x0 x1).2.1)
def soutA_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x768 .bf16 := VS0.read (Elt F) (VS0.writes (Elt F) VS0.junk (runA c i arg2 harg2 arg3 harg3 arg4 harg4 arg5 harg5 arg6 harg6 arg7 harg7 arg8 harg8 arg9 harg9 hc0 x0 x1).2.2.1)
def soutA_1 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x768 .bf16 := VS1.read (Elt F) (VS1.writes (Elt F) VS1.junk (runA c i arg2 harg2 arg3 harg3 arg4 harg4 arg5 harg5 arg6 harg6 arg7 harg7 arg8 harg8 arg9 harg9 hc0 x0 x1).2.2.2.1)
def soutA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x512 .bf16 := VS2.read (Elt F) (VS2.writes (Elt F) VS2.junk (runA c i arg2 harg2 arg3 harg3 arg4 harg4 arg5 harg5 arg6 harg6 arg7 harg7 arg8 harg8 arg9 harg9 hc0 x0 x1).2.2.2.2.1)
def soutA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x512 .bf16 := VS3.read (Elt F) (VS3.writes (Elt F) VS3.junk (runA c i arg2 harg2 arg3 harg3 arg4 harg4 arg5 harg5 arg6 harg6 arg7 harg7 arg8 harg8 arg9 harg9 hc0 x0 x1).2.2.2.2.2.1)

/-! ## What the buffers hold after each point -/

/-- After the body at position `n`: the two outputs' buffers, then the four scratch arrays. A first tile of a batch
    (`n` divisible by 4) computes all six from the batch's input blocks; a later tile computes the outputs from the
    blocks and the scratch the point before left, which it keeps. -/
def outsAt (c : Dev nD) : (n : ℕ) → n < cfg0.N → Vec F S1x128x3072 .f32 × Vec F S1x128x3072 .f32 × Vec F S512x768 .bf16 × Vec F S512x768 .bf16 × Vec F S512x512 .bf16 × Vec F S512x512 .bf16
  | 0, hn => (outA_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩))
  | n + 1, hn =>
    if h0 : (n + 1) % 4 = 0 then
      (outA_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩))
    else
      (outB_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) (fun h => h0 ((hcond0 ⟨n + 1, hn⟩).mp h)) (iblk m c 0 ⟨n + 1, hn⟩) (iblk m c 1 ⟨n + 1, hn⟩) (outsAt c n (Nat.lt_of_succ_lt hn)).2.2.1 (outsAt c n (Nat.lt_of_succ_lt hn)).2.2.2.1 (outsAt c n (Nat.lt_of_succ_lt hn)).2.2.2.2.1 (outsAt c n (Nat.lt_of_succ_lt hn)).2.2.2.2.2, outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) (fun h => h0 ((hcond0 ⟨n + 1, hn⟩).mp h)) (iblk m c 0 ⟨n + 1, hn⟩) (iblk m c 1 ⟨n + 1, hn⟩) (outsAt c n (Nat.lt_of_succ_lt hn)).2.2.1 (outsAt c n (Nat.lt_of_succ_lt hn)).2.2.2.1 (outsAt c n (Nat.lt_of_succ_lt hn)).2.2.2.2.1 (outsAt c n (Nat.lt_of_succ_lt hn)).2.2.2.2.2, (outsAt c n (Nat.lt_of_succ_lt hn)).2.2.1, (outsAt c n (Nat.lt_of_succ_lt hn)).2.2.2.1, (outsAt c n (Nat.lt_of_succ_lt hn)).2.2.2.2.1, (outsAt c n (Nat.lt_of_succ_lt hn)).2.2.2.2.2)

theorem outsAt_A (c : Dev nD) (t : Fin cfg0.N) (h0 : t.val % 4 = 0) :
    outsAt m c t.val t.isLt = (outA_2 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), outA_3 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_0 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_1 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_2 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_3 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 4 = 0) :
    outsAt m c t.val t.isLt = (outB_2 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) (fun h => h0 ((hcond0 t).mp h)) (iblk m c 0 t) (iblk m c 1 t) (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.1 (outsAt m c (t.val - 1) (Nat.lt_of_le_of_lt (Nat.sub_le _ _) t.isLt)).2.2.2.2.2, outB_3 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) (fun h => h0 ((hcond0 t).mp h)) (iblk m c 0 t) (iblk m c 1 t) (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.1 (outsAt m c (t.val - 1) (Nat.lt_of_le_of_lt (Nat.sub_le _ _) t.isLt)).2.2.2.2.2, (outsAt m c (t.val - 1) (Nat.lt_of_le_of_lt (Nat.sub_le _ _) t.isLt)).2.2.1, (outsAt m c (t.val - 1) (Nat.lt_of_le_of_lt (Nat.sub_le _ _) t.isLt)).2.2.2.1, (outsAt m c (t.val - 1) (Nat.lt_of_le_of_lt (Nat.sub_le _ _) t.isLt)).2.2.2.2.1, (outsAt m c (t.val - 1) (Nat.lt_of_le_of_lt (Nat.sub_le _ _) t.isLt)).2.2.2.2.2) := by
  obtain ⟨n, hn⟩ := t
  cases n with
  | zero => exact absurd (Nat.zero_mod _) h0
  | succ n => exact (dif_neg h0).trans rfl

/-- The region's invariant before position `n`: before the first point nothing is known of the scratch; afterwards the
    four scratch arrays hold what the point before left, and the generator register is at some state. -/
def PhiS (c : Dev nD) : (n : ℕ) → n ≤ cfg0.N → sProp 𝕄
  | 0, _ => Pipeline.ΦA spec0 c
  | n + 1, hn => iprop(iprop(owns (c : Thread nD τ) sc0 fullShare (outsAt m c n hn).2.2.1 ∗ owns (c : Thread nD τ) sc1 fullShare (outsAt m c n hn).2.2.2.1
      ∗ owns (c : Thread nD τ) sc2 fullShare (outsAt m c n hn).2.2.2.2.1 ∗ owns (c : Thread nD τ) sc3 fullShare (outsAt m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (outsAt m c n hn).2.2.1 ∗ owns (c : Thread nD τ) sc1 fullShare (outsAt m c n hn).2.2.2.1
      ∗ owns (c : Thread nD τ) sc2 fullShare (outsAt m c n hn).2.2.2.2.1 ∗ owns (c : Thread nD τ) sc3 fullShare (outsAt m c n hn).2.2.2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (outsAt m c (n - 1) (by omega)).2.2.1 ∗ owns (c : Thread nD τ) sc1 fullShare (outsAt m c (n - 1) (by omega)).2.2.2.1
      ∗ owns (c : Thread nD τ) sc2 fullShare (outsAt m c (n - 1) (by omega)).2.2.2.2.1 ∗ owns (c : Thread nD τ) sc3 fullShare (outsAt m c (n - 1) (by omega)).2.2.2.2.2) ∗ (∃ r, prngReg c r)) := by
  cases n with
  | zero => exact absurd rfl hz
  | succ n => rfl

/-! ## The proof data -/

/-- The arrays as the region finds them; after the body at point `t` each input's buffer at its block and each output's
    at `outsAt`'s component; the stepwise invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- No window is ever idle: the body stores into both outputs at every point. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. The inputs' buffers hold their blocks; the closed form of the condition says whether the point
    is a first tile; the invariant hands the body the scratch (at anything before the very first point, else at what the
    point before left) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  have hN : t.val < 128 := lt_of_lt_of_eq t.isLt (show cfg0.N = 128 from N_0)
  by_cases h0 : t.val % 4 = 0
  · rw [outsAt_A m c t h0]
    unfold outA_2 outA_3 soutA_0 soutA_1 soutA_2 soutA_3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩⟩
      iapply ((runA c (grid0.coords t) _ _ _ _ _ _ _ _ _ _ _ _ _ _ _ _ ((hcond0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, H1, ⟨%e2, H2⟩, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _)
          isplitl [HS2]
          · unfold owns; iexists _; isplitr
            swap; · iexact HS2
            ipureintro; exact View.read_writes_of_cover _ _ _ _ _ (scoverA_2 c _ _ _ _ _ _ _ _ _ _ _ _ _ _ _ _ _ _ _ _)
          unfold owns; iexists _; isplitr
          swap; · iexact HS3
          ipureintro; exact View.read_writes_of_cover _ _ _ _ _ (scoverA_3 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 c _ _ _ _ _ _ _ _ _ _ _ _ _ _ _ _ _ _ _ _)
      unfold owns; iexists _; isplitr
      swap; · iexact H3
      ipureintro; exact View.read_writes_of_cover _ _ _ _ _ (coverA_3 c _ _ _ _ _ _ _ _ _ _ _ _ _ _ _ _ _ _ _ _)
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((runA c (grid0.coords t) _ _ _ _ _ _ _ _ _ _ _ _ _ _ _ _ ((hcond0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [HS0]; · iexists _; iexact HS0
      isplitl [HS1]; · iexists _; iexact HS1
      isplitl [HS2]; · iexists _; iexact HS2
      isplitl [HS3]; · iexists _; iexact HS3
      iintro ⟨H0, H1, ⟨%e2, H2⟩, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _)
          isplitl [HS2]
          · unfold owns; iexists _; isplitr
            swap; · iexact HS2
            ipureintro; exact View.read_writes_of_cover _ _ _ _ _ (scoverA_2 c _ _ _ _ _ _ _ _ _ _ _ _ _ _ _ _ _ _ _ _)
          unfold owns; iexists _; isplitr
          swap; · iexact HS3
          ipureintro; exact View.read_writes_of_cover _ _ _ _ _ (scoverA_3 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 c _ _ _ _ _ _ _ _ _ _ _ _ _ _ _ _ _ _ _ _)
      unfold owns; iexists _; isplitr
      swap; · iexact H3
      ipureintro; exact View.read_writes_of_cover _ _ _ _ _ (coverA_3 c _ _ _ _ _ _ _ _ _ _ _ _ _ _ _ _ _ _ _ _)
  · have hz : t.val ≠ 0 := fun h => h0 (by rw [h])
    rw [outsAt_B m c t h0]
    unfold outB_2 outB_3; (try dsimp only)
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩⟩
    iapply ((runB c (grid0.coords t) _ _ _ _ _ _ _ _ _ _ _ _ _ _ _ _ (fun h => h0 ((hcond0 t).mp h)) (iblk m c 0 t) (iblk m c 1 t) _ _ _ _).2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    isplitl [HS3]; · iexact HS3
    iintro ⟨H0, H1, ⟨%e2, H2⟩, ⟨%e3, H3⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 c _ _ _ _ _ _ _ _ _ _ _ _ _ _ _ _ _ _ _ _ _ _ _ _)
    unfold owns; iexists _; isplitr
    swap; · iexact H3
    ipureintro; exact View.read_writes_of_cover _ _ _ _ _ (coverB_3 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch arrays' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each array of the pipeline holds what the
    proof data computes — an input its entry contents, an output those overwritten block by block by what the body left —. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealRunB.lean ====
/-
  One grid point of the fused attention kernel. The grid is (batch, tile): the first tile of a batch
  casts the batch's two input blocks, forms the 512 x 512 logits, both softmaxes, and keeps all four
  in scratch arrays; every tile then reads a 128-row band of the inputs and of the kept weights and
  stores one 128 x 3072 tile of each output.

  This module fixes the names the body's runs are stated over — the condition "first tile of its
  batch" in closed form, the staging and scratch memrefs, the region invariant with the four scratch
  arrays named — and runs the body at a tile that is NOT the first of its batch: nothing is stored
  into scratch, the inputs and the scratch arrays are read and handed back as they were, and each
  output's buffer ends with the pieces the two stores wrote.
-/
import proofs.«120919_j15779709846002_2_alg».proof.Proof.Gen.KernelIdeal.Frame
import proofs.«120919_j15779709846002_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first tile of a batch -/

/-- The body's one branch condition, from the grid coordinates: the tile coordinate is zero. -/
abbrev cond0 (i : grid0.Coords) : Prop := (Scalar.cmpi .ne (Scalar.extui (Scalar.cmpi .eq (BitVec.ofNat 32 (i 1).val) 0#32)) 0#32) = 1#1
/-- The grid is 32 batches of 4 tiles in row-major order, so it holds exactly at the points divisible by 4. -/
theorem hcond0 : ∀ t : Fin cfg0.N, cond0 (grid0.coords t) ↔ t.val % 4 = 0 :=
  (by decide +kernel : ∀ t : Fin grid0.N, cond0 (grid0.coords t) ↔ t.val % 4 = 0)

/-! ## The memrefs the body is called with -/

abbrev ms0 (t : Fin cfg0.N) : Memref sig .tc .vmem S1x512x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x3072 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x3072 .f32 := win0_3.stage (cfg0.slots t 3)
abbrev hs3 (t : Fin cfg0.N) : (ms3 t).IsWhole := hstage0_3 ((cfg0.slots t 3).cast nbuf0_3)
/-- The four scratch arrays: the two inputs of the batch cast to bf16, and the two softmaxes of its logits. -/
abbrev sc0 : Memref sig .tc .vmem S512x768 .bf16 := Memref.whole cc0_scratch0
abbrev sc1 : Memref sig .tc .vmem S512x768 .bf16 := Memref.whole cc0_scratch1
abbrev sc2 : Memref sig .tc .vmem S512x512 .bf16 := Memref.whole cc0_scratch2
abbrev sc3 : Memref sig .tc .vmem S512x512 .bf16 := Memref.whole cc0_scratch3

/-- The region's invariant when nothing is known of the scratch: each of the four at some contents, and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The body at a later tile of a batch -/

set_option maxHeartbeats 4000000 in
/-- At a tile that is not the first of its batch: from the inputs' buffers at `x0`, `x1`, the outputs' at anything and the
    scratch arrays at `xs0 … xs3`, the body runs to the end with the inputs and the scratch as they were and each output's
    buffer overwritten by the pieces its store wrote (found by the run). -/
noncomputable def runB (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i)
    (x0 x1 : Vec F S1x512x768 .f32) (xs0 xs1 : Vec F S512x768 .bf16) (xs2 xs3 : Vec F S512x512 .bf16) :
    Σ' (L2 : List (View.Piece (Elt F) S1x128x3072 .f32)), { L3 : List (View.Piece (Elt F) S1x128x3072 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ owns (c : Thread nD τ) arg8 fullShare xs2 ∗ owns (c : Thread nD τ) arg9 fullShare xs3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1
                ∗ owns (c : Thread nD τ) arg8 fullShare xs2 ∗ owns (c : Thread nD τ) arg9 fullShare xs3) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9) K } := by
  refine ⟨?_, ?_, fun E K => ?run⟩
  case run =>
    simp only [cc0_fused_kernel_eq_skeleton]; unfold cc0_fused_kernel_skel
    unfold owns
    iintro ⟨⟨%f0, %hf0, H0⟩, ⟨%f1, %hf1, H1⟩, ⟨%d2, %f2, -, H2⟩, ⟨%d3, %f3, -, H3⟩, ⟨%g0, %hg0, HS0⟩, ⟨%g1, %hg1, HS1⟩, ⟨%g2, %hg2, HS2⟩, ⟨%g3, %hg3, HS3⟩, Hk⟩
    obtain rfl := harg2.eq_unread hf0; obtain rfl := harg3.eq_unread hf1
    obtain rfl := harg6.eq_unread hg0; obtain rfl := harg7.eq_unread hg1
    obtain rfl := harg8.eq_unread hg2; obtain rfl := harg9.eq_unread hg3
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    isplitl [HS2]
    · iexists _; isplitr; · ipureintro; exact harg8.read_unread _
      iexact HS2
    iexists _; isplitr; · ipureintro; exact harg9.read_unread _
    iexact HS3

end Cert.KernelIdeal.Body

end
-- ==== Proof.IdealRunA.lean ====
/-
  The body of the fused attention kernel at the FIRST tile of a batch: the branch is taken, so the two input blocks
  are cast and kept, the logits and their two softmaxes are formed and kept, and then — as at every tile — a 128-row
  band of the inputs and of the weights just stored is read back and one tile of each output is stored.
  Nothing is assumed of what the four scratch arrays held before: the body reads each only as part of overwriting
  it, and what it read is not used.
-/
import proofs.«120919_j15779709846002_2_alg».proof.Proof.IdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- At the first tile of a batch: from the inputs' buffers at `x0`, `x1` and every other buffer at anything, the body runs
    to the end with the inputs as they were, and each output's and each scratch array's buffer overwritten by the pieces
    its stores wrote (found by the run: outputs first, then the four scratch arrays). -/
noncomputable def runA (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i)
    (x0 x1 : Vec F S1x512x768 .f32) :
    Σ' (L2 : List (View.Piece (Elt F) S1x128x3072 .f32)) (L3 : List (View.Piece (Elt F) S1x128x3072 .f32))
       (LS0 : List (View.Piece (Elt F) S512x768 .bf16)) (LS1 : List (View.Piece (Elt F) S512x768 .bf16))
       (LS2 : List (View.Piece (Elt F) S512x512 .bf16)), { LS3 : List (View.Piece (Elt F) S512x512 .bf16) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_fused_kernel_eq_skeleton]; unfold cc0_fused_kernel_skel
    unfold owns
    iintro ⟨⟨%f0, %hf0, H0⟩, ⟨%f1, %hf1, H1⟩, ⟨%d2, %f2, -, H2⟩, ⟨%d3, %f3, -, H3⟩, ⟨%e0, %g0, -, HS0⟩, ⟨%e1, %g1, -, HS1⟩, ⟨%e2, %g2, -, HS2⟩, ⟨%e3, %g3, -, HS3⟩, Hk⟩
    obtain rfl := harg2.eq_unread hf0; obtain rfl := harg3.eq_unread hf1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.Body

end
-- ==== Proof.IdealFrame.lean ====
/-
  The frame of the fused attention kernel: it runs to the end at every grid point, faults nowhere, and leaves
  its two argument arrays as they were.

  The four scratch arrays are carried from the first tile of a batch to its three later tiles, so the region's
  invariant is stated point by point: before the very first point the scratch holds anything; after a point it
  holds what the first tile of that point's batch stored — named here as the pieces that tile's stores wrote,
  read back. What the outputs' buffers and the scratch arrays hold after each point is one function defined by
  recursion on the point: a first tile computes all six from the batch's two input blocks; a later tile computes
  the two outputs from the blocks and the scratch the point before left, and leaves the scratch as it found it.
-/
import proofs.«120919_j15779709846002_2_alg».proof.Proof.IdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Views through which the buffers' contents are stated -/

abbrev VO2 : View sig .tc .vmem S1x128x3072 .f32 := (Memref.whole cc0_stg2_0 : Memref sig .tc .vmem S1x128x3072 .f32).view
abbrev VO3 : View sig .tc .vmem S1x128x3072 .f32 := (Memref.whole cc0_stg3_0 : Memref sig .tc .vmem S1x128x3072 .f32).view
abbrev VS0 : View sig .tc .vmem S512x768 .bf16 := sc0.view
abbrev VS1 : View sig .tc .vmem S512x768 .bf16 := sc1.view
abbrev VS2 : View sig .tc .vmem S512x512 .bf16 := sc2.view
abbrev VS3 : View sig .tc .vmem S512x512 .bf16 := sc3.view

/-! ## Every store covers its buffer, so what a buffer holds afterwards is its pieces read back -/

theorem coverB_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) (y : S1x128x3072.Idx) : ∃ pc ∈ (runB c i arg2 harg2 arg3 harg3 arg4 harg4 arg5 harg5 arg6 harg6 arg7 harg7 arg8 harg8 arg9 harg9 hc0 x0 x1 xs0 xs1 xs2 xs3).1, y ∈ pc.1.set :=
  View.cover_of_tiledL (runB c i arg2 harg2 arg3 harg3 arg4 harg4 arg5 harg5 arg6 harg6 arg7 harg7 arg8 harg8 arg9 harg9 hc0 x0 x1 xs0 xs1 xs2 xs3).1 S1x128x3072.size (by sl_kernel_rfl) y
theorem coverB_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) (y : S1x128x3072.Idx) : ∃ pc ∈ (runB c i arg2 harg2 arg3 harg3 arg4 harg4 arg5 harg5 arg6 harg6 arg7 harg7 arg8 harg8 arg9 harg9 hc0 x0 x1 xs0 xs1 xs2 xs3).2.1, y ∈ pc.1.set :=
  View.cover_of_tiledL (runB c i arg2 harg2 arg3 harg3 arg4 harg4 arg5 harg5 arg6 harg6 arg7 harg7 arg8 harg8 arg9 harg9 hc0 x0 x1 xs0 xs1 xs2 xs3).2.1 S1x128x3072.size (by sl_kernel_rfl) y
theorem coverA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S1x128x3072.Idx) : ∃ pc ∈ (runA c i arg2 harg2 arg3 harg3 arg4 harg4 arg5 harg5 arg6 harg6 arg7 harg7 arg8 harg8 arg9 harg9 hc0 x0 x1).1, y ∈ pc.1.set :=
  View.cover_of_tiledL (runA c i arg2 harg2 arg3 harg3 arg4 harg4 arg5 harg5 arg6 harg6 arg7 harg7 arg8 harg8 arg9 harg9 hc0 x0 x1).1 S1x128x3072.size (by sl_kernel_rfl) y
theorem coverA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S1x128x3072.Idx) : ∃ pc ∈ (runA c i arg2 harg2 arg3 harg3 arg4 harg4 arg5 harg5 arg6 harg6 arg7 harg7 arg8 harg8 arg9 harg9 hc0 x0 x1).2.1, y ∈ pc.1.set :=
  View.cover_of_tiledL (runA c i arg2 harg2 arg3 harg3 arg4 harg4 arg5 harg5 arg6 harg6 arg7 harg7 arg8 harg8 arg9 harg9 hc0 x0 x1).2.1 S1x128x3072.size (by sl_kernel_rfl) y
theorem scoverA_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x768.Idx) : ∃ pc ∈ (runA c i arg2 harg2 arg3 harg3 arg4 harg4 arg5 harg5 arg6 harg6 arg7 harg7 arg8 harg8 arg9 harg9 hc0 x0 x1).2.2.1, y ∈ pc.1.set :=
  View.cover_of_tiledL (runA c i arg2 harg2 arg3 harg3 arg4 harg4 arg5 harg5 arg6 harg6 arg7 harg7 arg8 harg8 arg9 harg9 hc0 x0 x1).2.2.1 S512x768.size (by sl_kernel_rfl) y
theorem scoverA_1 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x768.Idx) : ∃ pc ∈ (runA c i arg2 harg2 arg3 harg3 arg4 harg4 arg5 harg5 arg6 harg6 arg7 harg7 arg8 harg8 arg9 harg9 hc0 x0 x1).2.2.2.1, y ∈ pc.1.set :=
  View.cover_of_tiledL (runA c i arg2 harg2 arg3 harg3 arg4 harg4 arg5 harg5 arg6 harg6 arg7 harg7 arg8 harg8 arg9 harg9 hc0 x0 x1).2.2.2.1 S512x768.size (by sl_kernel_rfl) y
theorem scoverA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x512.Idx) : ∃ pc ∈ (runA c i arg2 harg2 arg3 harg3 arg4 harg4 arg5 harg5 arg6 harg6 arg7 harg7 arg8 harg8 arg9 harg9 hc0 x0 x1).2.2.2.2.1, y ∈ pc.1.set :=
  View.cover_of_tiledL (runA c i arg2 harg2 arg3 harg3 arg4 harg4 arg5 harg5 arg6 harg6 arg7 harg7 arg8 harg8 arg9 harg9 hc0 x0 x1).2.2.2.2.1 S512x512.size (by sl_kernel_rfl) y
theorem scoverA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) (y : S512x512.Idx) : ∃ pc ∈ (runA c i arg2 harg2 arg3 harg3 arg4 harg4 arg5 harg5 arg6 harg6 arg7 harg7 arg8 harg8 arg9 harg9 hc0 x0 x1).2.2.2.2.2.1, y ∈ pc.1.set :=
  View.cover_of_tiledL (runA c i arg2 harg2 arg3 harg3 arg4 harg4 arg5 harg5 arg6 harg6 arg7 harg7 arg8 harg8 arg9 harg9 hc0 x0 x1).2.2.2.2.2.1 S512x512.size (by sl_kernel_rfl) y

/-- What a later tile leaves in the first output's buffer, and in the second's. -/
def outB_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) : Vec F S1x128x3072 .f32 := VO2.read (Elt F) (VO2.writes (Elt F) VO2.junk (runB c i arg2 harg2 arg3 harg3 arg4 harg4 arg5 harg5 arg6 harg6 arg7 harg7 arg8 harg8 arg9 harg9 hc0 x0 x1 xs0 xs1 xs2 xs3).1)
def outB_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) : Vec F S1x128x3072 .f32 := VO3.read (Elt F) (VO3.writes (Elt F) VO3.junk (runB c i arg2 harg2 arg3 harg3 arg4 harg4 arg5 harg5 arg6 harg6 arg7 harg7 arg8 harg8 arg9 harg9 hc0 x0 x1 xs0 xs1 xs2 xs3).2.1)
/-- What a first tile leaves in the two outputs' buffers and in the four scratch arrays. -/
def outA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S1x128x3072 .f32 := VO2.read (Elt F) (VO2.writes (Elt F) VO2.junk (runA c i arg2 harg2 arg3 harg3 arg4 harg4 arg5 harg5 arg6 harg6 arg7 harg7 arg8 harg8 arg9 harg9 hc0 x0 x1).1)
def outA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S1x128x3072 .f32 := VO3.read (Elt F) (VO3.writes (Elt F) VO3.junk (runA c i arg2 harg2 arg3 harg3 arg4 harg4 arg5 harg5 arg6 harg6 arg7 harg7 arg8 harg8 arg9 harg9 hc0 x0 x1).2.1)
def soutA_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x768 .bf16 := VS0.read (Elt F) (VS0.writes (Elt F) VS0.junk (runA c i arg2 harg2 arg3 harg3 arg4 harg4 arg5 harg5 arg6 harg6 arg7 harg7 arg8 harg8 arg9 harg9 hc0 x0 x1).2.2.1)
def soutA_1 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x768 .bf16 := VS1.read (Elt F) (VS1.writes (Elt F) VS1.junk (runA c i arg2 harg2 arg3 harg3 arg4 harg4 arg5 harg5 arg6 harg6 arg7 harg7 arg8 harg8 arg9 harg9 hc0 x0 x1).2.2.2.1)
def soutA_2 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x512 .bf16 := VS2.read (Elt F) (VS2.writes (Elt F) VS2.junk (runA c i arg2 harg2 arg3 harg3 arg4 harg4 arg5 harg5 arg6 harg6 arg7 harg7 arg8 harg8 arg9 harg9 hc0 x0 x1).2.2.2.2.1)
def soutA_3 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : Vec F S512x512 .bf16 := VS3.read (Elt F) (VS3.writes (Elt F) VS3.junk (runA c i arg2 harg2 arg3 harg3 arg4 harg4 arg5 harg5 arg6 harg6 arg7 harg7 arg8 harg8 arg9 harg9 hc0 x0 x1).2.2.2.2.2.1)

/-! ## What the buffers hold after each point -/

/-- After the body at position `n`: the two outputs' buffers, then the four scratch arrays. A first tile of a batch
    (`n` divisible by 4) computes all six from the batch's input blocks; a later tile computes the outputs from the
    blocks and the scratch the point before left, which it keeps. -/
def outsAt (c : Dev nD) : (n : ℕ) → n < cfg0.N → Vec F S1x128x3072 .f32 × Vec F S1x128x3072 .f32 × Vec F S512x768 .bf16 × Vec F S512x768 .bf16 × Vec F S512x512 .bf16 × Vec F S512x512 .bf16
  | 0, hn => (outA_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩), soutA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩))
  | n + 1, hn =>
    if h0 : (n + 1) % 4 = 0 then
      (outA_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩), soutA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩))
    else
      (outB_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) (fun h => h0 ((hcond0 ⟨n + 1, hn⟩).mp h)) (iblk m c 0 ⟨n + 1, hn⟩) (iblk m c 1 ⟨n + 1, hn⟩) (outsAt c n (Nat.lt_of_succ_lt hn)).2.2.1 (outsAt c n (Nat.lt_of_succ_lt hn)).2.2.2.1 (outsAt c n (Nat.lt_of_succ_lt hn)).2.2.2.2.1 (outsAt c n (Nat.lt_of_succ_lt hn)).2.2.2.2.2, outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) (fun h => h0 ((hcond0 ⟨n + 1, hn⟩).mp h)) (iblk m c 0 ⟨n + 1, hn⟩) (iblk m c 1 ⟨n + 1, hn⟩) (outsAt c n (Nat.lt_of_succ_lt hn)).2.2.1 (outsAt c n (Nat.lt_of_succ_lt hn)).2.2.2.1 (outsAt c n (Nat.lt_of_succ_lt hn)).2.2.2.2.1 (outsAt c n (Nat.lt_of_succ_lt hn)).2.2.2.2.2, (outsAt c n (Nat.lt_of_succ_lt hn)).2.2.1, (outsAt c n (Nat.lt_of_succ_lt hn)).2.2.2.1, (outsAt c n (Nat.lt_of_succ_lt hn)).2.2.2.2.1, (outsAt c n (Nat.lt_of_succ_lt hn)).2.2.2.2.2)

theorem outsAt_A (c : Dev nD) (t : Fin cfg0.N) (h0 : t.val % 4 = 0) :
    outsAt m c t.val t.isLt = (outA_2 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), outA_3 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_0 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_1 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_2 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t), soutA_3 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 4 = 0) :
    outsAt m c t.val t.isLt = (outB_2 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) (fun h => h0 ((hcond0 t).mp h)) (iblk m c 0 t) (iblk m c 1 t) (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.1 (outsAt m c (t.val - 1) (Nat.lt_of_le_of_lt (Nat.sub_le _ _) t.isLt)).2.2.2.2.2, outB_3 c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) (fun h => h0 ((hcond0 t).mp h)) (iblk m c 0 t) (iblk m c 1 t) (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.1 (outsAt m c (t.val - 1) (Nat.lt_of_le_of_lt (Nat.sub_le _ _) t.isLt)).2.2.2.2.2, (outsAt m c (t.val - 1) (Nat.lt_of_le_of_lt (Nat.sub_le _ _) t.isLt)).2.2.1, (outsAt m c (t.val - 1) (Nat.lt_of_le_of_lt (Nat.sub_le _ _) t.isLt)).2.2.2.1, (outsAt m c (t.val - 1) (Nat.lt_of_le_of_lt (Nat.sub_le _ _) t.isLt)).2.2.2.2.1, (outsAt m c (t.val - 1) (Nat.lt_of_le_of_lt (Nat.sub_le _ _) t.isLt)).2.2.2.2.2) := by
  obtain ⟨n, hn⟩ := t
  cases n with
  | zero => exact absurd (Nat.zero_mod _) h0
  | succ n => exact (dif_neg h0).trans rfl

/-- The region's invariant before position `n`: before the first point nothing is known of the scratch; afterwards the
    four scratch arrays hold what the point before left, and the generator register is at some state. -/
def PhiS (c : Dev nD) : (n : ℕ) → n ≤ cfg0.N → sProp 𝕄
  | 0, _ => Pipeline.ΦA spec0 c
  | n + 1, hn => iprop(iprop(owns (c : Thread nD τ) sc0 fullShare (outsAt m c n hn).2.2.1 ∗ owns (c : Thread nD τ) sc1 fullShare (outsAt m c n hn).2.2.2.1
      ∗ owns (c : Thread nD τ) sc2 fullShare (outsAt m c n hn).2.2.2.2.1 ∗ owns (c : Thread nD τ) sc3 fullShare (outsAt m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (outsAt m c n hn).2.2.1 ∗ owns (c : Thread nD τ) sc1 fullShare (outsAt m c n hn).2.2.2.1
      ∗ owns (c : Thread nD τ) sc2 fullShare (outsAt m c n hn).2.2.2.2.1 ∗ owns (c : Thread nD τ) sc3 fullShare (outsAt m c n hn).2.2.2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (outsAt m c (n - 1) (by omega)).2.2.1 ∗ owns (c : Thread nD τ) sc1 fullShare (outsAt m c (n - 1) (by omega)).2.2.2.1
      ∗ owns (c : Thread nD τ) sc2 fullShare (outsAt m c (n - 1) (by omega)).2.2.2.2.1 ∗ owns (c : Thread nD τ) sc3 fullShare (outsAt m c (n - 1) (by omega)).2.2.2.2.2) ∗ (∃ r, prngReg c r)) := by
  cases n with
  | zero => exact absurd rfl hz
  | succ n => rfl

/-! ## The proof data -/

/-- The arrays as the region finds them; after the body at point `t` each input's buffer at its block and each output's
    at `outsAt`'s component; the stepwise invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- No window is ever idle: the body stores into both outputs at every point. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. The inputs' buffers hold their blocks; the closed form of the condition says whether the point
    is a first tile; the invariant hands the body the scratch (at anything before the very first point, else at what the
    point before left) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  have hN : t.val < 128 := lt_of_lt_of_eq t.isLt (show cfg0.N = 128 from N_0)
  by_cases h0 : t.val % 4 = 0
  · rw [outsAt_A m c t h0]
    unfold outA_2 outA_3 soutA_0 soutA_1 soutA_2 soutA_3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩⟩
      iapply ((runA c (grid0.coords t) _ _ _ _ _ _ _ _ _ _ _ _ _ _ _ _ ((hcond0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, H1, ⟨%e2, H2⟩, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _)
          isplitl [HS2]
          · unfold owns; iexists _; isplitr
            swap; · iexact HS2
            ipureintro; exact View.read_writes_of_cover _ _ _ _ _ (scoverA_2 c _ _ _ _ _ _ _ _ _ _ _ _ _ _ _ _ _ _ _ _)
          unfold owns; iexists _; isplitr
          swap; · iexact HS3
          ipureintro; exact View.read_writes_of_cover _ _ _ _ _ (scoverA_3 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 c _ _ _ _ _ _ _ _ _ _ _ _ _ _ _ _ _ _ _ _)
      unfold owns; iexists _; isplitr
      swap; · iexact H3
      ipureintro; exact View.read_writes_of_cover _ _ _ _ _ (coverA_3 c _ _ _ _ _ _ _ _ _ _ _ _ _ _ _ _ _ _ _ _)
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((runA c (grid0.coords t) _ _ _ _ _ _ _ _ _ _ _ _ _ _ _ _ ((hcond0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [HS0]; · iexists _; iexact HS0
      isplitl [HS1]; · iexists _; iexact HS1
      isplitl [HS2]; · iexists _; iexact HS2
      isplitl [HS3]; · iexists _; iexact HS3
      iintro ⟨H0, H1, ⟨%e2, H2⟩, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _)
          isplitl [HS2]
          · unfold owns; iexists _; isplitr
            swap; · iexact HS2
            ipureintro; exact View.read_writes_of_cover _ _ _ _ _ (scoverA_2 c _ _ _ _ _ _ _ _ _ _ _ _ _ _ _ _ _ _ _ _)
          unfold owns; iexists _; isplitr
          swap; · iexact HS3
          ipureintro; exact View.read_writes_of_cover _ _ _ _ _ (scoverA_3 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 c _ _ _ _ _ _ _ _ _ _ _ _ _ _ _ _ _ _ _ _)
      unfold owns; iexists _; isplitr
      swap; · iexact H3
      ipureintro; exact View.read_writes_of_cover _ _ _ _ _ (coverA_3 c _ _ _ _ _ _ _ _ _ _ _ _ _ _ _ _ _ _ _ _)
  · have hz : t.val ≠ 0 := fun h => h0 (by rw [h])
    rw [outsAt_B m c t h0]
    unfold outB_2 outB_3; (try dsimp only)
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩⟩
    iapply ((runB c (grid0.coords t) _ _ _ _ _ _ _ _ _ _ _ _ _ _ _ _ (fun h => h0 ((hcond0 t).mp h)) (iblk m c 0 t) (iblk m c 1 t) _ _ _ _).2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    isplitl [HS3]; · iexact HS3
    iintro ⟨H0, H1, ⟨%e2, H2⟩, ⟨%e3, H3⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 c _ _ _ _ _ _ _ _ _ _ _ _ _ _ _ _ _ _ _ _ _ _ _ _)
    unfold owns; iexists _; isplitr
    swap; · iexact H3
    ipureintro; exact View.read_writes_of_cover _ _ _ _ _ (coverB_3 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch arrays' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each array of the pipeline holds what the
    proof data computes — an input its entry contents, an output those overwritten block by block by what the body left —. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealPieces.lean ====
/-
  What each buffer holds after a point, as one expression of the point's loads.

  Every store of the body writes its whole buffer, so a buffer's contents afterwards are the stored value itself,
  and a load that follows a store reads that value back. The loads are: the whole of an input block; a band of 128
  rows of an input block seen as a 512 x 768 matrix (the block's unit batch axis dropped); a band of 128 columns of
  the column-wise softmax kept in scratch, and a band of 128 rows of the row-wise one; and the two cast inputs kept
  in scratch. With these named, a first tile leaves in scratch the two casts and the two softmaxes of the batch's
  logits, and every tile leaves in each output the join of four 128 x 768 pieces built from its bands.
-/
import proofs.«120919_j15779709846002_2_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl

/-- A buffer read after ONE store that covered it reads the stored value, whatever it held before. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-! ## The bands a tile reads -/

/-- Rows `128 k … 128 k + 127` of an input block, the block read as a 512 x 768 matrix (`k` the tile coordinate). -/
def tileIn (i : grid0.Coords) (x : Vec F S1x512x768 .f32) : Vec F S128x768 .f32 :=
  View.ld (shapeCast S512x768 x shapeCasts_S1x512x768_S512x768) (Rect.unit (s := S512x768) (k0_off1 i) S128x768.size (k0_off1_inb i))
/-- Columns `128 k … 128 k + 127` of a 512 x 512 matrix. -/
def bandCols (i : grid0.Coords) (w : Vec F S512x512 .bf16) : Vec F S512x128 .bf16 :=
  View.ld w (Rect.unit (s := S512x512) (k0_off2 i) S512x128.size (k0_off2_inb i))
/-- Rows `128 k … 128 k + 127` of a 512 x 512 matrix. -/
def bandRows (i : grid0.Coords) (w : Vec F S512x512 .bf16) : Vec F S128x512 .bf16 :=
  View.ld w (Rect.unit (s := S512x512) (k0_off3 i) S128x512.size (k0_off3_inb i))

/-- A load of a band of rows through the squeezed view of a whole input buffer reads the band of the buffer's contents,
    the unit batch axis dropped. -/
theorem ld_squeezed (arg : Memref sig .tc .vmem S1x512x768 .f32) (harg : arg.IsWhole) (x : Vec F S1x512x768 .f32)
    (p : ∀ a, (Rect.unit (s := S1x512x768) ![0, 0, 0] S1x512x768.size inb_S1x512x768_S1x512x768_0_0_0).stride a = 1)
    (i : grid0.Coords) :
    View.readAt (Elt F) ((arg.slice (Rect.unit (s := S1x512x768) ![0, 0, 0] S1x512x768.size inb_S1x512x768_S1x512x768_0_0_0) p).squeeze S512x768 squeezes_S1x512x768_S512x768).view
        (Rect.unit (s := S512x768) (k0_off1 i) S128x768.size (k0_off1_inb i)).toLoadRect (harg.unread x)
      = tileIn i x := by
  rw [View.readAt_eq_ld, Memref.read_squeeze_slice arg _ _ _ shapeCasts_S1x512x768_S512x768, View.readAt_eq_ld, harg.read_unread,
    View.ld_unit_zero hz3]
  rfl

/-! ## A later tile of a batch -/

set_option maxHeartbeats 2000000 in
theorem outB_2_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) :
    outB_2 c i arg2 harg2 arg3 harg3 arg4 harg4 arg5 harg5 arg6 harg6 arg7 harg7 arg8 harg8 arg9 harg9 hc0 x0 x1 xs0 xs1 xs2 xs3 = k0_pay11 (tileIn i x0) (bandRows i xs3) xs1 := by
  unfold outB_2
  rw [View.read_writes_eq_canon _ _ _ (coverB_2 c i arg2 harg2 arg3 harg3 arg4 harg4 arg5 harg5 arg6 harg6 arg7 harg7 arg8 harg8 arg9 harg9 hc0 x0 x1 xs0 xs1 xs2 xs3)]
  unfold runB
  dsimp only
  sl_unfold_run_names
  rw [View.canon_unit_zero (S := S1x128x3072) hz3]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

set_option maxHeartbeats 2000000 in
theorem outB_3_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec F S1x512x768 .f32) (xs0 xs1 : Vec F S512x768 .bf16) (xs2 xs3 : Vec F S512x512 .bf16) :
    outB_3 c i arg2 harg2 arg3 harg3 arg4 harg4 arg5 harg5 arg6 harg6 arg7 harg7 arg8 harg8 arg9 harg9 hc0 x0 x1 xs0 xs1 xs2 xs3 = k0_pay1 (k0_pay10 (tileIn i x1) (bandCols i xs2) xs0) := by
  unfold outB_3
  rw [View.read_writes_eq_canon _ _ _ (coverB_3 c i arg2 harg2 arg3 harg3 arg4 harg4 arg5 harg5 arg6 harg6 arg7 harg7 arg8 harg8 arg9 harg9 hc0 x0 x1 xs0 xs1 xs2 xs3)]
  unfold runB
  dsimp only
  sl_unfold_run_names
  rw [View.canon_unit_zero (S := S1x128x3072) hz3]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

/-! ## The first tile of a batch -/

set_option maxHeartbeats 2000000 in
theorem soutA_0_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : soutA_0 c i arg2 harg2 arg3 harg3 arg4 harg4 arg5 harg5 arg6 harg6 arg7 harg7 arg8 harg8 arg9 harg9 hc0 x0 x1 = k0_pay4 x0 := by
  unfold soutA_0
  rw [View.read_writes_eq_canon _ _ _ (scoverA_0 c i arg2 harg2 arg3 harg3 arg4 harg4 arg5 harg5 arg6 harg6 arg7 harg7 arg8 harg8 arg9 harg9 hc0 x0 x1)]
  unfold runA
  dsimp only
  sl_unfold_run_names
  rw [View.canon_unit_zero (S := S512x768) hz2]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

set_option maxHeartbeats 2000000 in
theorem soutA_1_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : soutA_1 c i arg2 harg2 arg3 harg3 arg4 harg4 arg5 harg5 arg6 harg6 arg7 harg7 arg8 harg8 arg9 harg9 hc0 x0 x1 = k0_pay5 x1 := by
  unfold soutA_1
  rw [View.read_writes_eq_canon _ _ _ (scoverA_1 c i arg2 harg2 arg3 harg3 arg4 harg4 arg5 harg5 arg6 harg6 arg7 harg7 arg8 harg8 arg9 harg9 hc0 x0 x1)]
  unfold runA
  dsimp only
  sl_unfold_run_names
  rw [View.canon_unit_zero (S := S512x768) hz2]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

set_option maxHeartbeats 2000000 in
theorem soutA_2_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : soutA_2 c i arg2 harg2 arg3 harg3 arg4 harg4 arg5 harg5 arg6 harg6 arg7 harg7 arg8 harg8 arg9 harg9 hc0 x0 x1 = k0_pay8 x0 x1 := by
  unfold soutA_2
  rw [View.read_writes_eq_canon _ _ _ (scoverA_2 c i arg2 harg2 arg3 harg3 arg4 harg4 arg5 harg5 arg6 harg6 arg7 harg7 arg8 harg8 arg9 harg9 hc0 x0 x1)]
  unfold runA
  dsimp only
  sl_unfold_run_names
  rw [View.canon_unit_zero (S := S512x512) hz2]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

set_option maxHeartbeats 2000000 in
theorem soutA_3_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) : soutA_3 c i arg2 harg2 arg3 harg3 arg4 harg4 arg5 harg5 arg6 harg6 arg7 harg7 arg8 harg8 arg9 harg9 hc0 x0 x1 = k0_pay9 (k0_pay7 x0 x1) := by
  unfold soutA_3
  rw [View.read_writes_eq_canon _ _ _ (scoverA_3 c i arg2 harg2 arg3 harg3 arg4 harg4 arg5 harg5 arg6 harg6 arg7 harg7 arg8 harg8 arg9 harg9 hc0 x0 x1)]
  unfold runA
  dsimp only
  sl_unfold_run_names
  rw [View.canon_unit_zero (S := S512x512) hz2]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

set_option maxHeartbeats 2000000 in
theorem outA_2_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) :
    outA_2 c i arg2 harg2 arg3 harg3 arg4 harg4 arg5 harg5 arg6 harg6 arg7 harg7 arg8 harg8 arg9 harg9 hc0 x0 x1 = k0_pay11 (tileIn i x0) (bandRows i (k0_pay9 (k0_pay7 x0 x1))) (k0_pay5 x1) := by
  unfold outA_2
  rw [View.read_writes_eq_canon _ _ _ (coverA_2 c i arg2 harg2 arg3 harg3 arg4 harg4 arg5 harg5 arg6 harg6 arg7 harg7 arg8 harg8 arg9 harg9 hc0 x0 x1)]
  unfold runA
  dsimp only
  sl_unfold_run_names
  rw [View.canon_unit_zero (S := S1x128x3072) hz3]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

set_option maxHeartbeats 2000000 in
theorem outA_3_eq (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec F S1x512x768 .f32) :
    outA_3 c i arg2 harg2 arg3 harg3 arg4 harg4 arg5 harg5 arg6 harg6 arg7 harg7 arg8 harg8 arg9 harg9 hc0 x0 x1 = k0_pay1 (k0_pay10 (tileIn i x1) (bandCols i (k0_pay8 x0 x1)) (k0_pay4 x0)) := by
  unfold outA_3
  rw [View.read_writes_eq_canon _ _ _ (coverA_3 c i arg2 harg2 arg3 harg3 arg4 harg4 arg5 harg5 arg6 harg6 arg7 harg7 arg8 harg8 arg9 harg9 hc0 x0 x1)]
  unfold runA
  dsimp only
  sl_unfold_run_names
  rw [View.canon_unit_zero (S := S1x128x3072) hz3]
  try rw [ld_squeezed arg2 harg2 x0]
  try rw [ld_squeezed arg3 harg3 x1]
  simp only [View.readAt_eq_ld, harg2.read_unread, harg3.read_unread, harg6.read_unread, harg7.read_unread, harg8.read_unread, harg9.read_unread,
    View.ld_unit_zero (S := S512x768) hz2, View.ld_unit_zero (S := S512x512) hz2, View.ld_unit_zero (S := S1x512x768) hz3,
    read_writes_whole (S := S512x768) _ _ hz2, read_writes_whole (S := S512x512) _ _ hz2,
    View.readCov_unit_zero (S := S512x768) _ hz2, View.readCov_unit_zero (S := S512x512) _ hz2]
  try rfl

end Cert.KernelIdeal.Body

end
-- ==== Proof.AttnSpec.lean ====
/-
  The mathematics both programs compute, for one batch, on the extended reals.

  From two 512 x 768 matrices `a` and `b`: the logits `L i j = Σ_d a i d · b j d`; the softmax of `L` down each
  column and along each row — each entry the exponential of the entry less its column's (row's) maximum, over the sum
  of those exponentials, the maximum taken from −∞ and once more against −∞, as both programs spell it —; the rows of
  `b` averaged by the row softmax and the rows of `a` averaged by the column softmax; and, for a row `x` and its
  averaged partner `y`, the join of `x`, `y`, `x − y` and `x · y` along the last axis.
  The two result arrays are these, batch by batch.
-/
import Idealize.ShloMosaic.PureOps.Ideal
import Idealize.ShloMosaic.Lib.ValueIdx

noncomputable section

namespace Cert.Attn

open Idealize.ShloMosaic Idealize.ShloMosaic.ValueIdx

/-- −∞, as the word both programs start a maximum from. -/
abbrev NEG : EReal := Ideal.ofBits .f32 0xFF800000#32

/-- The logits of two 512 x 768 matrices: row `i` of the first against row `j` of the second. -/
def logit (a b : Fin 512 → Fin 768 → EReal) (i j : Fin 512) : EReal := ∑ d : Fin 768, a i d * b j d

/-- A column's maximum, folded from −∞ and taken once more against −∞. -/
def colMax (L : Fin 512 → Fin 512 → EReal) (j : Fin 512) : EReal :=
  max NEG ((Finset.univ : Finset (Fin 512)).fold max NEG (fun i => L i j))
/-- A row's maximum, likewise. -/
def rowMax (L : Fin 512 → Fin 512 → EReal) (i : Fin 512) : EReal :=
  max NEG ((Finset.univ : Finset (Fin 512)).fold max NEG (fun j => L i j))

/-- The softmax down each column. -/
def colSoft (L : Fin 512 → Fin 512 → EReal) (i j : Fin 512) : EReal :=
  Ideal.div (Ideal.exp (L i j - colMax L j)) (∑ k : Fin 512, Ideal.exp (L k j - colMax L j))
/-- The softmax along each row. -/
def rowSoft (L : Fin 512 → Fin 512 → EReal) (i j : Fin 512) : EReal :=
  Ideal.div (Ideal.exp (L i j - rowMax L i)) (∑ k : Fin 512, Ideal.exp (L i k - rowMax L i))

/-- Row `i` of the first matrix's partner: the rows of `b` weighted by row `i` of the row softmax. -/
def alignedB (a b : Fin 512 → Fin 768 → EReal) (i : Fin 512) (d : Fin 768) : EReal :=
  ∑ j : Fin 512, rowSoft (logit a b) i j * b j d
/-- Row `j` of the second matrix's partner: the rows of `a` weighted by column `j` of the column softmax. -/
def alignedA (a b : Fin 512 → Fin 768 → EReal) (j : Fin 512) (d : Fin 768) : EReal :=
  ∑ i : Fin 512, colSoft (logit a b) i j * a i d

/-- The four pieces joined along the last axis: piece `n` at `d`. -/
def join (x y : Fin 768 → EReal) (n : Fin 4) (d : Fin 768) : EReal :=
  match n with
  | 0 => x d
  | 1 => y d
  | 2 => x d - y d
  | 3 => x d * y d

/-- Batch `b` of a 32 x 512 x 768 array, as a matrix. -/
def rowsOf (X : (⟨3, ![32, 512, 768]⟩ : Shape).Idx → EReal) (b : Fin 32) : Fin 512 → Fin 768 → EReal :=
  fun i d => X (ix3 b i d)

/-- The first result by coordinates: batch `b`, row `i`, column `col` of 3072. -/
def out0c (X0 X1 : (⟨3, ![32, 512, 768]⟩ : Shape).Idx → EReal) (b : Fin 32) (i : Fin 512) (col : Fin 3072) : EReal :=
  join (rowsOf X0 b i) (alignedB (rowsOf X0 b) (rowsOf X1 b) i) ⟨col.val / 768, by have := col.isLt; omega⟩
    ⟨col.val % 768, Nat.mod_lt _ (by norm_num)⟩
/-- The second result by coordinates. -/
def out1c (X0 X1 : (⟨3, ![32, 512, 768]⟩ : Shape).Idx → EReal) (b : Fin 32) (j : Fin 512) (col : Fin 3072) : EReal :=
  join (rowsOf X1 b j) (alignedA (rowsOf X0 b) (rowsOf X1 b) j) ⟨col.val / 768, by have := col.isLt; omega⟩
    ⟨col.val % 768, Nat.mod_lt _ (by norm_num)⟩

/-- The two result arrays. -/
def out0 (X0 X1 : (⟨3, ![32, 512, 768]⟩ : Shape).Idx → EReal) : (⟨3, ![32, 512, 3072]⟩ : Shape).Idx → EReal :=
  fun j => out0c X0 X1 ⟨(j 0).val, (j 0).isLt⟩ ⟨(j 1).val, (j 1).isLt⟩ ⟨(j 2).val, (j 2).isLt⟩
def out1 (X0 X1 : (⟨3, ![32, 512, 768]⟩ : Shape).Idx → EReal) : (⟨3, ![32, 512, 3072]⟩ : Shape).Idx → EReal :=
  fun j => out1c X0 X1 ⟨(j 0).val, (j 0).isLt⟩ ⟨(j 1).val, (j 1).isLt⟩ ⟨(j 2).val, (j 2).isLt⟩

theorem out0_ix3 (X0 X1 : (⟨3, ![32, 512, 768]⟩ : Shape).Idx → EReal) (b : Fin 32) (i : Fin 512) (col : Fin 3072) :
    out0 X0 X1 (ix3 b i col) = out0c X0 X1 b i col := rfl
theorem out1_ix3 (X0 X1 : (⟨3, ![32, 512, 768]⟩ : Shape).Idx → EReal) (b : Fin 32) (i : Fin 512) (col : Fin 3072) :
    out1 X0 X1 (ix3 b i col) = out1c X0 X1 b i col := rfl

end Cert.Attn

end
-- ==== Proof.LibColumn.lean ====
/-
  Column vectors kept as two-axis arrays, read at an index.

  A sum over the last axis with the axis kept leaves an `[a, 1]` array. These lemmas read the layout operations that
  handle such a column: the cast of a vector `[a]` to the column `[a, 1]`, the cast of the column to the row `[1, a]`
  (a transposition, since one extent is one), and the broadcast of the column along a new last axis `[a, b]`.
-/
import Idealize.ShloMosaic.Lib.ValueLayout
import Idealize.ShloMosaic.Lib.Pipeline.Value

namespace Idealize.ShloMosaic.ColumnLayout

open Idealize.ShloMosaic Idealize.ShloMosaic.ValueIdx

variable {α : Type} {a b : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` array broadcast to `[a, b]` reads, at `(p, c)`, the operand's one column at `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.IdealPay.lean ====
/-
  The kernel's arithmetic read at an index, on the extended reals.

  Each pure value the body computes between its loads and stores is read here at one index of its result:
  a cast to bf16 and a cast between shapes of equal extent change nothing; a product into the zero accumulator is the
  plain sum over the contracted axis; a maximum-reduction is the fold of `max` from −∞ and an add-reduction the sum,
  over the reduced axis's coordinates; a vector kept as a row or as a column and spread over a matrix reads its one
  entry; a join of four pieces along the last axis reads piece `col / 768` at `col % 768`; and a band of rows or of
  columns reads the matrix at the band's offset plus the coordinate inside it.
  So the two kept softmaxes are the specification's, and each output tile is the specification's join over its band.
-/
import proofs.«120919_j15779709846002_2_alg».proof.Proof.Gen.KernelIdeal.Skeleton
import proofs.«120919_j15779709846002_2_alg».proof.Proof.IdealPieces
import proofs.«120919_j15779709846002_2_alg».proof.Proof.AttnSpec
import proofs.«120919_j15779709846002_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.KernelIdeal.Body Cert.Attn
open Idealize.ShloMosaic Idealize.ShloMosaic.ValueIdx Idealize.ShloMosaic.ColumnLayout

/-- A block of the inputs (one batch, its unit axis leading) as a 512 x 768 matrix. -/
def rows (x : Vec Ideal S1x512x768 .f32) : Fin 512 → Fin 768 → EReal := fun i d => x (ix3 (0 : Fin 1) i d)

/-! ## Reductions: the reduced axis's coordinate put back -/

theorem lift0 (h : S512x512.Reduces [0] S512) (j k : Fin 512) : h.lift (ix1 j) k = ix2 k j :=
  funext fun a => Fin.ext (by match a with | ⟨0, _⟩ => rfl | ⟨1, _⟩ => rfl)
theorem lift1 (h : S512x512.Reduces [1] S512) (i k : Fin 512) : h.lift (ix1 i) k = ix2 i k :=
  funext fun a => Fin.ext (by match a with | ⟨0, _⟩ => rfl | ⟨1, _⟩ => rfl)

/-! ## The three products -/

theorem dotLogit_l (i : S512x512.Idx) (q : dot_S512x768_S512x768_S512x512_1_1_0_0_n_n.contr.Idx) : (dot_S512x768_S512x768_S512x512_1_1_0_0_n_n.lhsIdx i q 0).val = (i 0).val := by
  unfold DotDims.lhsIdx
  rw [dif_neg (show ¬(0 : Fin S512x768.rank) ∈ dot_S512x768_S512x768_S512x512_1_1_0_0_n_n.lhsBatch by decide), dif_pos (show (0 : Fin S512x768.rank) ∈ dot_S512x768_S512x768_S512x512_1_1_0_0_n_n.lhsNonContracting by decide)]
  rfl
theorem dotLogit_r (i : S512x512.Idx) (q : dot_S512x768_S512x768_S512x512_1_1_0_0_n_n.contr.Idx) : (dot_S512x768_S512x768_S512x512_1_1_0_0_n_n.rhsIdx i q 0).val = (i 1).val := by
  unfold DotDims.rhsIdx
  rw [dif_neg (show ¬(0 : Fin S512x768.rank) ∈ dot_S512x768_S512x768_S512x512_1_1_0_0_n_n.rhsBatch by decide), dif_pos (show (0 : Fin S512x768.rank) ∈ dot_S512x768_S512x768_S512x512_1_1_0_0_n_n.rhsNonContracting by decide)]
  rfl

/-- The product into the zero accumulator, read at `(p, q)`: the plain sum over the contracted axis. -/
theorem dotLogit (l : FVec Ideal S512x768 .bf16) (r : FVec Ideal S512x768 .bf16) (p : Fin 512) (q : Fin 512) :
    matmul dot_S512x768_S512x768_S512x512_1_1_0_0_n_n none l r (constant (F := Ideal) S512x512 .f32 0x00000000#32) (ix2 p q) = ∑ k : Fin 768, l (ix2 p k) * r (ix2 q k) := by
  refine (Ideal.matmul_constant_zero_apply dot_S512x768_S512x768_S512x512_1_1_0_0_n_n none l r (ix2 p q)).trans ?_
  rw [← Equiv.sum_comp (contrEquiv1 dot_S512x768_S512x768_S512x512_1_1_0_0_n_n 768 rfl rfl).symm]
  refine Finset.sum_congr rfl fun k _ => ?_
  have hk := contrEquiv1_symm_val dot_S512x768_S512x768_S512x512_1_1_0_0_n_n 768 rfl rfl k
  have el : dot_S512x768_S512x768_S512x512_1_1_0_0_n_n.lhsIdx (ix2 p q) ((contrEquiv1 dot_S512x768_S512x768_S512x512_1_1_0_0_n_n 768 rfl rfl).symm k) = ix2 p k := funext fun a => Fin.ext (by
    match a with
    | ⟨0, _⟩ => exact dotLogit_l _ _
    | ⟨1, _⟩ => exact (dot_S512x768_S512x768_S512x512_1_1_0_0_n_n.lhsIdx_val_of_single rfl _ _).trans hk)
  have er : dot_S512x768_S512x768_S512x512_1_1_0_0_n_n.rhsIdx (ix2 p q) ((contrEquiv1 dot_S512x768_S512x768_S512x512_1_1_0_0_n_n 768 rfl rfl).symm k) = ix2 q k := funext fun a => Fin.ext (by
    match a with
    | ⟨0, _⟩ => exact dotLogit_r _ _
    | ⟨1, _⟩ => exact (dot_S512x768_S512x768_S512x512_1_1_0_0_n_n.rhsIdx_val_of_single rfl _ _).trans hk)
  rw [el, er]

theorem dotRows_l (i : S128x768.Idx) (q : dot_S128x512_S512x768_S128x768_1_0_0_1_n_n.contr.Idx) : (dot_S128x512_S512x768_S128x768_1_0_0_1_n_n.lhsIdx i q 0).val = (i 0).val := by
  unfold DotDims.lhsIdx
  rw [dif_neg (show ¬(0 : Fin S128x512.rank) ∈ dot_S128x512_S512x768_S128x768_1_0_0_1_n_n.lhsBatch by decide), dif_pos (show (0 : Fin S128x512.rank) ∈ dot_S128x512_S512x768_S128x768_1_0_0_1_n_n.lhsNonContracting by decide)]
  rfl
theorem dotRows_r (i : S128x768.Idx) (q : dot_S128x512_S512x768_S128x768_1_0_0_1_n_n.contr.Idx) : (dot_S128x512_S512x768_S128x768_1_0_0_1_n_n.rhsIdx i q 1).val = (i 1).val := by
  unfold DotDims.rhsIdx
  rw [dif_neg (show ¬(1 : Fin S512x768.rank) ∈ dot_S128x512_S512x768_S128x768_1_0_0_1_n_n.rhsBatch by decide), dif_pos (show (1 : Fin S512x768.rank) ∈ dot_S128x512_S512x768_S128x768_1_0_0_1_n_n.rhsNonContracting by decide)]
  rfl

/-- The product into the zero accumulator, read at `(p, q)`: the plain sum over the contracted axis. -/
theorem dotRows (l : FVec Ideal S128x512 .bf16) (r : FVec Ideal S512x768 .bf16) (p : Fin 128) (q : Fin 768) :
    matmul dot_S128x512_S512x768_S128x768_1_0_0_1_n_n none l r (constant (F := Ideal) S128x768 .f32 0x00000000#32) (ix2 p q) = ∑ k : Fin 512, l (ix2 p k) * r (ix2 k q) := by
  refine (Ideal.matmul_constant_zero_apply dot_S128x512_S512x768_S128x768_1_0_0_1_n_n none l r (ix2 p q)).trans ?_
  rw [← Equiv.sum_comp (contrEquiv1 dot_S128x512_S512x768_S128x768_1_0_0_1_n_n 512 rfl rfl).symm]
  refine Finset.sum_congr rfl fun k _ => ?_
  have hk := contrEquiv1_symm_val dot_S128x512_S512x768_S128x768_1_0_0_1_n_n 512 rfl rfl k
  have el : dot_S128x512_S512x768_S128x768_1_0_0_1_n_n.lhsIdx (ix2 p q) ((contrEquiv1 dot_S128x512_S512x768_S128x768_1_0_0_1_n_n 512 rfl rfl).symm k) = ix2 p k := funext fun a => Fin.ext (by
    match a with
    | ⟨0, _⟩ => exact dotRows_l _ _
    | ⟨1, _⟩ => exact (dot_S128x512_S512x768_S128x768_1_0_0_1_n_n.lhsIdx_val_of_single rfl _ _).trans hk)
  have er : dot_S128x512_S512x768_S128x768_1_0_0_1_n_n.rhsIdx (ix2 p q) ((contrEquiv1 dot_S128x512_S512x768_S128x768_1_0_0_1_n_n 512 rfl rfl).symm k) = ix2 k q := funext fun a => Fin.ext (by
    match a with
    | ⟨1, _⟩ => exact dotRows_r _ _
    | ⟨0, _⟩ => exact (dot_S128x512_S512x768_S128x768_1_0_0_1_n_n.rhsIdx_val_of_single rfl _ _).trans hk)
  rw [el, er]

theorem dotCols_l (i : S128x768.Idx) (q : dot_S512x128_S512x768_S128x768_0_0_1_1_n_n.contr.Idx) : (dot_S512x128_S512x768_S128x768_0_0_1_1_n_n.lhsIdx i q 1).val = (i 0).val := by
  unfold DotDims.lhsIdx
  rw [dif_neg (show ¬(1 : Fin S512x128.rank) ∈ dot_S512x128_S512x768_S128x768_0_0_1_1_n_n.lhsBatch by decide), dif_pos (show (1 : Fin S512x128.rank) ∈ dot_S512x128_S512x768_S128x768_0_0_1_1_n_n.lhsNonContracting by decide)]
  rfl
theorem dotCols_r (i : S128x768.Idx) (q : dot_S512x128_S512x768_S128x768_0_0_1_1_n_n.contr.Idx) : (dot_S512x128_S512x768_S128x768_0_0_1_1_n_n.rhsIdx i q 1).val = (i 1).val := by
  unfold DotDims.rhsIdx
  rw [dif_neg (show ¬(1 : Fin S512x768.rank) ∈ dot_S512x128_S512x768_S128x768_0_0_1_1_n_n.rhsBatch by decide), dif_pos (show (1 : Fin S512x768.rank) ∈ dot_S512x128_S512x768_S128x768_0_0_1_1_n_n.rhsNonContracting by decide)]
  rfl

/-- The product into the zero accumulator, read at `(p, q)`: the plain sum over the contracted axis. -/
theorem dotCols (l : FVec Ideal S512x128 .bf16) (r : FVec Ideal S512x768 .bf16) (p : Fin 128) (q : Fin 768) :
    matmul dot_S512x128_S512x768_S128x768_0_0_1_1_n_n none l r (constant (F := Ideal) S128x768 .f32 0x00000000#32) (ix2 p q) = ∑ k : Fin 512, l (ix2 k p) * r (ix2 k q) := by
  refine (Ideal.matmul_constant_zero_apply dot_S512x128_S512x768_S128x768_0_0_1_1_n_n none l r (ix2 p q)).trans ?_
  rw [← Equiv.sum_comp (contrEquiv1 dot_S512x128_S512x768_S128x768_0_0_1_1_n_n 512 rfl rfl).symm]
  refine Finset.sum_congr rfl fun k _ => ?_
  have hk := contrEquiv1_symm_val dot_S512x128_S512x768_S128x768_0_0_1_1_n_n 512 rfl rfl k
  have el : dot_S512x128_S512x768_S128x768_0_0_1_1_n_n.lhsIdx (ix2 p q) ((contrEquiv1 dot_S512x128_S512x768_S128x768_0_0_1_1_n_n 512 rfl rfl).symm k) = ix2 k p := funext fun a => Fin.ext (by
    match a with
    | ⟨1, _⟩ => exact dotCols_l _ _
    | ⟨0, _⟩ => exact (dot_S512x128_S512x768_S128x768_0_0_1_1_n_n.lhsIdx_val_of_single rfl _ _).trans hk)
  have er : dot_S512x128_S512x768_S128x768_0_0_1_1_n_n.rhsIdx (ix2 p q) ((contrEquiv1 dot_S512x128_S512x768_S128x768_0_0_1_1_n_n 512 rfl rfl).symm k) = ix2 k q := funext fun a => Fin.ext (by
    match a with
    | ⟨1, _⟩ => exact dotCols_r _ _
    | ⟨0, _⟩ => exact (dot_S512x128_S512x768_S128x768_0_0_1_1_n_n.rhsIdx_val_of_single rfl _ _).trans hk)
  rw [el, er]

/-! ## The casts the first tile keeps -/

theorem pay2_apply (x : Vec Ideal S1x512x768 .f32) (i : Fin 512) (d : Fin 768) : k0_pay2 (F := Ideal) x (ix2 i d) = rows x i d := by
  unfold k0_pay2
  exact shapeCast_1ab_ab_apply x _ i d
theorem pay3_apply (x : Vec Ideal S1x512x768 .f32) (i : Fin 512) (d : Fin 768) : k0_pay3 (F := Ideal) x (ix2 i d) = rows x i d := by
  unfold k0_pay3
  exact shapeCast_1ab_ab_apply x _ i d
theorem pay4_apply (x : Vec Ideal S1x512x768 .f32) (i : Fin 512) (d : Fin 768) : k0_pay4 (F := Ideal) x (ix2 i d) = rows x i d := by
  unfold k0_pay4
  rw [shapeCast_self]
  exact pay2_apply x i d
theorem pay5_apply (x : Vec Ideal S1x512x768 .f32) (i : Fin 512) (d : Fin 768) : k0_pay5 (F := Ideal) x (ix2 i d) = rows x i d := by
  unfold k0_pay5
  rw [shapeCast_self]
  exact pay3_apply x i d

/-- The logits the first tile forms are the specification's, of the two blocks as matrices. -/
theorem pay6_apply (x0 x1 : Vec Ideal S1x512x768 .f32) (i j : Fin 512) :
    k0_pay6 (F := Ideal) x0 x1 (ix2 i j) = logit (rows x0) (rows x1) i j := by
  unfold k0_pay6
  refine (dotLogit (k0_pay2 (F := Ideal) x0) (k0_pay3 (F := Ideal) x1) i j).trans ?_
  unfold logit
  exact Finset.sum_congr rfl fun k _ => by rw [pay2_apply, pay3_apply]

/-! ## The two softmaxes -/

/-- The column maxima as the kernel takes them: the maximum-reduction from −∞ along axis 0, then once more against −∞. -/
def kColMaxV (L : FVec Ideal S512x512 .f32) : FVec Ideal S512 .f32 :=
  maximumf (broadcast S512 (Scalar.ofBits (F := Ideal) .f32 0xFF800000#32)) (multiReduction .maximumf [0] S512 L 0xFF800000#32 reduces_S512x512_S512 (.inl rfl) rfl)
/-- The exponentials of the logits less their column's maximum. -/
def kColExp (L : FVec Ideal S512x512 .f32) : FVec Ideal S512x512 .f32 :=
  exp (subf L (broadcastTo S512x512 (shapeCast S1x512 (kColMaxV L) shapeCasts_S512_S1x512) broadcasts_S1x512_S512x512))
/-- The kernel's softmax along axis 0. -/
def kColSoft (L : FVec Ideal S512x512 .f32) : FVec Ideal S512x512 .f32 :=
  divf (kColExp L) (broadcastTo S512x512 (shapeCast S1x512 (multiReduction .add [0] S512 (kColExp L) 0x00000000#32 reduces_S512x512_S512 (.inl rfl) rfl) shapeCasts_S512_S1x512) broadcasts_S1x512_S512x512)

/-- A vector of 512 kept as one row and spread over the matrix reads, at `(i, j)`, its entry `j`. -/
theorem spreadCol (v : FVec Ideal S512 .f32) (i j : Fin 512) :
    broadcastTo S512x512 (shapeCast S1x512 v shapeCasts_S512_S1x512) broadcasts_S1x512_S512x512 (ix2 i j) = v (ix1 j) :=
  (broadcastTo_1b_ab_apply _ _ i j).trans (shapeCast_a_1a_apply v _ (0 : Fin 1) j)

theorem kColMaxV_apply (L : FVec Ideal S512x512 .f32) (j : Fin 512) :
    kColMaxV L (ix1 j) = colMax (fun p q => L (ix2 p q)) j := by
  unfold kColMaxV colMax
  show max (Ideal.ofBits .f32 0xFF800000#32) (multiReduction .maximumf [0] S512 L 0xFF800000#32 reduces_S512x512_S512 (.inl rfl) rfl (ix1 j)) = _
  refine congrArg (max _) ?_
  refine (Ideal.multiReduction_maximumf_single L _ reduces_S512x512_S512 _ _ (ix1 j)).trans ?_
  exact Finset.fold_congr (fun k _ => congrArg L (lift0 _ j k))

theorem kColExp_apply (L : FVec Ideal S512x512 .f32) (i j : Fin 512) :
    kColExp L (ix2 i j) = Ideal.exp (L (ix2 i j) - colMax (fun p q => L (ix2 p q)) j) := by
  unfold kColExp
  show Ideal.exp (L (ix2 i j) - broadcastTo S512x512 (shapeCast S1x512 (kColMaxV L) shapeCasts_S512_S1x512) broadcasts_S1x512_S512x512 (ix2 i j)) = _
  rw [spreadCol, kColMaxV_apply]

theorem kColSoft_apply (L : FVec Ideal S512x512 .f32) (i j : Fin 512) :
    kColSoft L (ix2 i j) = colSoft (fun p q => L (ix2 p q)) i j := by
  unfold kColSoft colSoft
  show Ideal.div (kColExp L (ix2 i j)) (broadcastTo S512x512 (shapeCast S1x512 (multiReduction .add [0] S512 (kColExp L) 0x00000000#32 reduces_S512x512_S512 (.inl rfl) rfl) shapeCasts_S512_S1x512) broadcasts_S1x512_S512x512 (ix2 i j)) = _
  rw [spreadCol, kColExp_apply]
  refine congrArg (Ideal.div _) ?_
  refine (Ideal.multiReduction_add_single (kColExp L) _ reduces_S512x512_S512 _ _ (ix1 j)).trans ?_
  refine Finset.sum_congr rfl fun k _ => ?_
  rw [lift0 _ j k]
  exact kColExp_apply L k j

/-- The row maxima as the kernel takes them: the maximum-reduction from −∞ along axis 1, then once more against −∞. -/
def kRowMaxV (L : FVec Ideal S512x512 .f32) : FVec Ideal S512 .f32 :=
  maximumf (broadcast S512 (Scalar.ofBits (F := Ideal) .f32 0xFF800000#32)) (multiReduction .maximumf [1] S512 L 0xFF800000#32 reduces_S512x512_S512_2 (.inl rfl) rfl)
/-- The exponentials of the logits less their row's maximum. -/
def kRowExp (L : FVec Ideal S512x512 .f32) : FVec Ideal S512x512 .f32 :=
  exp (subf L (broadcastTo S512x512 (shapeCast S512x1 (kRowMaxV L) shapeCasts_S512_S512x1) broadcasts_S512x1_S512x512))
/-- The kernel's softmax along axis 1. -/
def kRowSoft (L : FVec Ideal S512x512 .f32) : FVec Ideal S512x512 .f32 :=
  divf (kRowExp L) (broadcastTo S512x512 (shapeCast S512x1 (multiReduction .add [1] S512 (kRowExp L) 0x00000000#32 reduces_S512x512_S512_2 (.inl rfl) rfl) shapeCasts_S512_S512x1) broadcasts_S512x1_S512x512)

/-- A vector of 512 kept as one column and spread over the matrix reads, at `(i, j)`, its entry `i`. -/
theorem spreadRow (v : FVec Ideal S512 .f32) (i j : Fin 512) :
    broadcastTo S512x512 (shapeCast S512x1 v shapeCasts_S512_S512x1) broadcasts_S512x1_S512x512 (ix2 i j) = v (ix1 i) :=
  (broadcastTo_a1_ab_apply _ _ i j).trans (shapeCast_a_a1_apply v _ i (0 : Fin 1))

theorem kRowMaxV_apply (L : FVec Ideal S512x512 .f32) (i : Fin 512) :
    kRowMaxV L (ix1 i) = rowMax (fun p q => L (ix2 p q)) i := by
  unfold kRowMaxV rowMax
  show max (Ideal.ofBits .f32 0xFF800000#32) (multiReduction .maximumf [1] S512 L 0xFF800000#32 reduces_S512x512_S512_2 (.inl rfl) rfl (ix1 i)) = _
  refine congrArg (max _) ?_
  refine (Ideal.multiReduction_maximumf_single L _ reduces_S512x512_S512_2 _ _ (ix1 i)).trans ?_
  exact Finset.fold_congr (fun k _ => congrArg L (lift1 _ i k))

theorem kRowExp_apply (L : FVec Ideal S512x512 .f32) (i j : Fin 512) :
    kRowExp L (ix2 i j) = Ideal.exp (L (ix2 i j) - rowMax (fun p q => L (ix2 p q)) i) := by
  unfold kRowExp
  show Ideal.exp (L (ix2 i j) - broadcastTo S512x512 (shapeCast S512x1 (kRowMaxV L) shapeCasts_S512_S512x1) broadcasts_S512x1_S512x512 (ix2 i j)) = _
  rw [spreadRow, kRowMaxV_apply]

theorem kRowSoft_apply (L : FVec Ideal S512x512 .f32) (i j : Fin 512) :
    kRowSoft L (ix2 i j) = rowSoft (fun p q => L (ix2 p q)) i j := by
  unfold kRowSoft rowSoft
  show Ideal.div (kRowExp L (ix2 i j)) (broadcastTo S512x512 (shapeCast S512x1 (multiReduction .add [1] S512 (kRowExp L) 0x00000000#32 reduces_S512x512_S512_2 (.inl rfl) rfl) shapeCasts_S512_S512x1) broadcasts_S512x1_S512x512 (ix2 i j)) = _
  rw [spreadRow, kRowExp_apply]
  refine congrArg (Ideal.div _) ?_
  refine (Ideal.multiReduction_add_single (kRowExp L) _ reduces_S512x512_S512_2 _ _ (ix1 i)).trans ?_
  refine Finset.sum_congr rfl fun k _ => ?_
  rw [lift1 _ i k]
  exact kRowExp_apply L i k

theorem pay7_eq (x0 x1 : Vec Ideal S1x512x768 .f32) : k0_pay7 (F := Ideal) x0 x1 = kRowSoft (k0_pay6 (F := Ideal) x0 x1) := rfl
theorem pay8_eq (x0 x1 : Vec Ideal S1x512x768 .f32) :
    k0_pay8 (F := Ideal) x0 x1 = shapeCast S512x512 (truncf .bf16 (kColSoft (k0_pay6 (F := Ideal) x0 x1)) bitsLt_bf16_f32) shapeCasts_S512x512_S512x512 := rfl

/-- The row softmax kept in scratch is the specification's, of the batch's logits. -/
theorem pay97_apply (x0 x1 : Vec Ideal S1x512x768 .f32) (i j : Fin 512) :
    k0_pay9 (F := Ideal) (k0_pay7 (F := Ideal) x0 x1) (ix2 i j) = rowSoft (logit (rows x0) (rows x1)) i j := by
  unfold k0_pay9
  rw [shapeCast_self, pay7_eq]
  show kRowSoft (k0_pay6 (F := Ideal) x0 x1) (ix2 i j) = _
  rw [kRowSoft_apply]
  exact congrArg (fun L => rowSoft L i j) (funext fun p => funext fun q => pay6_apply x0 x1 p q)
/-- The column softmax kept in scratch is the specification's. -/
theorem pay8_apply (x0 x1 : Vec Ideal S1x512x768 .f32) (i j : Fin 512) :
    k0_pay8 (F := Ideal) x0 x1 (ix2 i j) = colSoft (logit (rows x0) (rows x1)) i j := by
  rw [pay8_eq, shapeCast_self]
  show kColSoft (k0_pay6 (F := Ideal) x0 x1) (ix2 i j) = _
  rw [kColSoft_apply]
  exact congrArg (fun L => colSoft L i j) (funext fun p => funext fun q => pay6_apply x0 x1 p q)

/-! ## The join of four pieces -/

theorem concat4_apply (f : Fin 4 → (S128x768.Idx → EReal)) (h : Shape.Concatenates [S128x768, S128x768, S128x768, S128x768] S128x3072 1)
    (r : Fin 128) (col : Fin 3072) (n : Fin 4) (d : Fin 768) (hn : col.val / 768 = n.val) (hd : d.val = col.val % 768) :
    concatenate S128x3072 1 [⟨S128x768, f 0⟩, ⟨S128x768, f 1⟩, ⟨S128x768, f 2⟩, ⟨S128x768, f 3⟩] h (ix2 r col) = f n (ix2 r d) := by
  refine concatenate_ofFn_apply (t := S128x3072) (s₁ := S128x768) 1 f h rfl 768 rfl (ix2 r col) n hn (ix2 r d) hd ?_
  intro b hb
  match b with
  | ⟨0, _⟩ => rfl
  | ⟨1, _⟩ => exact absurd rfl hb

/-- The join the body stores: a tile `v`, its partner `y`, their difference and their product, side by side. -/
def kJoin (v y : FVec Ideal S128x768 .f32) : FVec Ideal S1x128x3072 .f32 :=
  shapeCast S1x128x3072 (concatenate S128x3072 1 [⟨S128x768, v⟩, ⟨S128x768, y⟩, ⟨S128x768, subf v y⟩, ⟨S128x768, mulf v y⟩]
    concatenates_S128x768_S128x768_S128x768_S128x768_S128x3072_d1) shapeCasts_S128x3072_S1x128x3072

theorem kJoin_apply (v y : FVec Ideal S128x768 .f32) (u : Fin 1) (r : Fin 128) (col : Fin 3072) :
    kJoin v y (ix3 u r col) = join (fun d => v (ix2 r d)) (fun d => y (ix2 r d)) ⟨col.val / 768, by have := col.isLt; omega⟩
      ⟨col.val % 768, Nat.mod_lt _ (by norm_num)⟩ := by
  unfold kJoin
  refine (shapeCast_ab_1ab_apply _ _ u r col).trans ?_
  refine (concat4_apply ![v, y, subf v y, mulf v y] _ r col ⟨col.val / 768, by have := col.isLt; omega⟩
    ⟨col.val % 768, Nat.mod_lt _ (by norm_num)⟩ rfl rfl).trans ?_
  generalize (⟨col.val / 768, by have := col.isLt; omega⟩ : Fin 4) = n
  fin_cases n <;> rfl

theorem pay11_eq (v8 : Vec Ideal S128x768 .f32) (v16 : Vec Ideal S128x512 .bf16) (v18 : Vec Ideal S512x768 .bf16) :
    k0_pay11 (F := Ideal) v8 v16 v18 = kJoin v8 (matmul (φ₁ := .bf16) (φ₂ := .bf16) dot_S128x512_S512x768_S128x768_1_0_0_1_n_n none v16 v18 (constant (F := Ideal) S128x768 .f32 0x00000000#32)) := rfl
theorem pay1_10_eq (v12 : Vec Ideal S128x768 .f32) (v14 : Vec Ideal S512x128 .bf16) (v17 : Vec Ideal S512x768 .bf16) :
    k0_pay1 (F := Ideal) (k0_pay10 (F := Ideal) v12 v14 v17) = kJoin v12 (matmul (φ₁ := .bf16) (φ₂ := .bf16) dot_S512x128_S512x768_S128x768_0_0_1_1_n_n none v14 v17 (constant (F := Ideal) S128x768 .f32 0x00000000#32)) := rfl

/-! ## The bands -/

theorem tileIn_apply (i : grid0.Coords) (x : Vec Ideal S1x512x768 .f32) (r : Fin 128) (d : Fin 768) (R : Fin 512)
    (hR : R.val = 128 * (i 1).val + r.val) : tileIn i x (ix2 r d) = rows x R d := by
  unfold tileIn
  show shapeCast S512x768 x shapeCasts_S1x512x768_S512x768 ((Rect.unit (s := S512x768) (k0_off1 i) S128x768.size (k0_off1_inb i)).emb (ix2 r d)) = _
  have e : (Rect.unit (s := S512x768) (k0_off1 i) S128x768.size (k0_off1_inb i)).emb (ix2 r d) = ix2 R d := by
    funext a; apply Fin.ext
    match a with
    | ⟨0, _⟩ => show k0_off1 i 0 + 1 * r.val = R.val; rw [k0_off1_eq]; show 128 * (i 1).val + 1 * r.val = R.val; omega
    | ⟨1, _⟩ => show k0_off1 i 1 + 1 * d.val = d.val; rw [k0_off1_eq]; show 0 + 1 * d.val = d.val; omega
  rw [e]
  exact shapeCast_1ab_ab_apply x _ R d

theorem bandRows_apply (i : grid0.Coords) (w : Vec Ideal S512x512 .bf16) (r : Fin 128) (j : Fin 512) (R : Fin 512)
    (hR : R.val = 128 * (i 1).val + r.val) : bandRows i w (ix2 r j) = w (ix2 R j) := by
  unfold bandRows
  show w ((Rect.unit (s := S512x512) (k0_off3 i) S128x512.size (k0_off3_inb i)).emb (ix2 r j)) = _
  refine congrArg w (funext fun a => Fin.ext ?_)
  match a with
  | ⟨0, _⟩ => show k0_off3 i 0 + 1 * r.val = R.val; rw [k0_off3_eq]; show 128 * (i 1).val + 1 * r.val = R.val; omega
  | ⟨1, _⟩ => show k0_off3 i 1 + 1 * j.val = j.val; rw [k0_off3_eq]; show 0 + 1 * j.val = j.val; omega

theorem bandCols_apply (i : grid0.Coords) (w : Vec Ideal S512x512 .bf16) (p : Fin 512) (r : Fin 128) (R : Fin 512)
    (hR : R.val = 128 * (i 1).val + r.val) : bandCols i w (ix2 p r) = w (ix2 p R) := by
  unfold bandCols
  show w ((Rect.unit (s := S512x512) (k0_off2 i) S512x128.size (k0_off2_inb i)).emb (ix2 p r)) = _
  refine congrArg w (funext fun a => Fin.ext ?_)
  match a with
  | ⟨0, _⟩ => show k0_off2 i 0 + 1 * p.val = p.val; rw [k0_off2_eq]; show 0 + 1 * p.val = p.val; omega
  | ⟨1, _⟩ => show k0_off2 i 1 + 1 * r.val = R.val; rw [k0_off2_eq]; show 128 * (i 1).val + 1 * r.val = R.val; omega

end Cert.KernelIdeal.Pay

end
-- ==== Proof.IdealTile.lean ====
/-
  From tiles to arrays.

  A point of the grid is a batch `b = t / 4` and a tile `k = t % 4`. Both input windows' blocks at the point are batch
  `b` of the argument arrays; the outputs' blocks are rows `128 k … 128 k + 127` of batch `b` of the results.
  Three facts, in order. The scratch arrays after any point hold, of that point's batch, the two inputs and the two
  softmaxes of their logits: a first tile stores exactly these, and a later tile of the same batch leaves them.
  Hence what any point leaves in each output's buffer is, entry by entry, the specification's join at the batch and at
  the tile's rows. And since every index of a result lies in exactly the block of the point `4 b + row / 128`, which is
  written back, each result array ends as the specification's function of the argument arrays.
-/
import proofs.«120919_j15779709846002_2_alg».proof.Proof.IdealPay

set_option maxRecDepth 16384

noncomputable section

namespace Cert.KernelIdeal.Tile

open Cert.KernelIdeal Cert.KernelIdeal.Gen Cert.KernelIdeal.Body Cert.KernelIdeal.Pay Cert.Attn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The grid -/

/-- The windows' block indices at point `t`: the batch on axis 0; on axis 1 nothing for the inputs and the tile for the
    outputs; nothing on axis 2. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- The tile coordinate of point `t`. -/
theorem coord1 : ∀ t : Fin cfg0.N, ((grid0.coords t) 1).val = t.val % 4 :=
  (by decide +kernel : ∀ t : Fin grid0.N, _)

/-! ## The input blocks are batches of the argument arrays -/

theorem rows_iblk0 (c : Dev nD) (t : Fin cfg0.N) (b : Fin 32) (hb : b.val = t.val / 4) :
    rows (iblk m c 0 t) = rowsOf (V m c main_arg0) b := by
  funext i d
  show V m c main_arg0 (((cfg0.win 0).blk t).view.emb (ix3 (0 : Fin 1) i d)) = V m c main_arg0 (ix3 b i d)
  refine congrArg _ (funext fun a => Fin.ext ?_)
  obtain ⟨e0, e1, e2, -⟩ := idx_facts t
  match a with
  | ⟨0, _⟩ => show win0_0.index t (0 : Fin 3) * 1 + 1 * 0 = b.val; omega
  | ⟨1, _⟩ => show win0_0.index t (1 : Fin 3) * 512 + 1 * i.val = i.val; omega
  | ⟨2, _⟩ => show win0_0.index t (2 : Fin 3) * 768 + 1 * d.val = d.val; omega

theorem rows_iblk1 (c : Dev nD) (t : Fin cfg0.N) (b : Fin 32) (hb : b.val = t.val / 4) :
    rows (iblk m c 1 t) = rowsOf (V m c main_arg1) b := by
  funext i d
  show V m c main_arg1 (((cfg0.win 1).blk t).view.emb (ix3 (0 : Fin 1) i d)) = V m c main_arg1 (ix3 b i d)
  refine congrArg _ (funext fun a => Fin.ext ?_)
  obtain ⟨-, -, -, e0, e1, e2, -⟩ := idx_facts t
  match a with
  | ⟨0, _⟩ => show win0_1.index t (0 : Fin 3) * 1 + 1 * 0 = b.val; omega
  | ⟨1, _⟩ => show win0_1.index t (1 : Fin 3) * 512 + 1 * i.val = i.val; omega
  | ⟨2, _⟩ => show win0_1.index t (2 : Fin 3) * 768 + 1 * d.val = d.val; omega

/-! ## What the scratch arrays hold after a point -/

/-- The four scratch arrays hold the two matrices `A`, `B` and the column-wise and row-wise softmax of their logits. -/
def ScrOK (A B : Fin 512 → Fin 768 → EReal) (s : Vec Ideal S1x128x3072 .f32 × Vec Ideal S1x128x3072 .f32 × Vec Ideal S512x768 .bf16 × Vec Ideal S512x768 .bf16 × Vec Ideal S512x512 .bf16 × Vec Ideal S512x512 .bf16) : Prop :=
  (∀ i d, s.2.2.1 (ix2 i d) = A i d) ∧ (∀ i d, s.2.2.2.1 (ix2 i d) = B i d)
  ∧ (∀ i j, s.2.2.2.2.1 (ix2 i j) = colSoft (logit A B) i j)
  ∧ (∀ i j, s.2.2.2.2.2 (ix2 i j) = rowSoft (logit A B) i j)

theorem ScrOK.of_eq {A B : Fin 512 → Fin 768 → EReal} {s s' : Vec Ideal S1x128x3072 .f32 × Vec Ideal S1x128x3072 .f32 × Vec Ideal S512x768 .bf16 × Vec Ideal S512x768 .bf16 × Vec Ideal S512x512 .bf16 × Vec Ideal S512x512 .bf16} (h : s = s') (p : ScrOK A B s') : ScrOK A B s := h ▸ p

/-- A point that leaves the scratch arrays as it found them leaves them right. -/
theorem ScrOK.keep {A B : Fin 512 → Fin 768 → EReal} (o2 o3 : Vec Ideal S1x128x3072 .f32) (s : Vec Ideal S1x128x3072 .f32 × Vec Ideal S1x128x3072 .f32 × Vec Ideal S512x768 .bf16 × Vec Ideal S512x768 .bf16 × Vec Ideal S512x512 .bf16 × Vec Ideal S512x512 .bf16) (p : ScrOK A B s) :
    ScrOK A B (o2, o3, s.2.2.1, s.2.2.2.1, s.2.2.2.2.1, s.2.2.2.2.2) := ⟨p.1, p.2.1, p.2.2.1, p.2.2.2⟩

/-- The four facts, of any six buffers. -/
theorem ScrOK.intro {A B : Fin 512 → Fin 768 → EReal} (o2 o3 : Vec Ideal S1x128x3072 .f32) (s0 s1 : Vec Ideal S512x768 .bf16)
    (s2 s3 : Vec Ideal S512x512 .bf16) (h0 : ∀ p d, s0 (ix2 p d) = A p d) (h1 : ∀ p d, s1 (ix2 p d) = B p d)
    (h2 : ∀ p q, s2 (ix2 p q) = colSoft (logit A B) p q) (h3 : ∀ p q, s3 (ix2 p q) = rowSoft (logit A B) p q) :
    ScrOK A B (o2, o3, s0, s1, s2, s3) := ⟨h0, h1, h2, h3⟩

set_option maxHeartbeats 2000000 in
/-- A first tile stores exactly these, of the blocks it was handed. -/
theorem scr_first (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec Ideal S1x512x768 .f32) (A B : Fin 512 → Fin 768 → EReal) (hA : rows x0 = A) (hB : rows x1 = B) :
    ScrOK A B (outA_2 c i arg2 harg2 arg3 harg3 arg4 harg4 arg5 harg5 arg6 harg6 arg7 harg7 arg8 harg8 arg9 harg9 hc0 x0 x1, outA_3 c i arg2 harg2 arg3 harg3 arg4 harg4 arg5 harg5 arg6 harg6 arg7 harg7 arg8 harg8 arg9 harg9 hc0 x0 x1, soutA_0 c i arg2 harg2 arg3 harg3 arg4 harg4 arg5 harg5 arg6 harg6 arg7 harg7 arg8 harg8 arg9 harg9 hc0 x0 x1, soutA_1 c i arg2 harg2 arg3 harg3 arg4 harg4 arg5 harg5 arg6 harg6 arg7 harg7 arg8 harg8 arg9 harg9 hc0 x0 x1, soutA_2 c i arg2 harg2 arg3 harg3 arg4 harg4 arg5 harg5 arg6 harg6 arg7 harg7 arg8 harg8 arg9 harg9 hc0 x0 x1, soutA_3 c i arg2 harg2 arg3 harg3 arg4 harg4 arg5 harg5 arg6 harg6 arg7 harg7 arg8 harg8 arg9 harg9 hc0 x0 x1) :=
  ScrOK.intro _ _ _ _ _ _
    (fun p d => by rw [soutA_0_eq, pay4_apply, hA])
    (fun p d => by rw [soutA_1_eq, pay5_apply, hB])
    (fun p q => by rw [soutA_2_eq, pay8_apply, hA, hB])
    (fun p q => by rw [soutA_3_eq, pay97_apply, hA, hB])

set_option maxHeartbeats 1000000 in
/-- After every point the scratch arrays hold that point's batch. -/
theorem scr_ok (c : Dev nD) : ∀ (n : ℕ) (hn : n < cfg0.N) (b : Fin 32), b.val = n / 4 →
    ScrOK (rowsOf (V m c main_arg0) b) (rowsOf (V m c main_arg1) b) (outsAt m c n hn) := by
  intro n
  induction n with
  | zero =>
    intro hn b hb
    exact ScrOK.of_eq (outsAt_A m c ⟨0, hn⟩ (Nat.zero_mod _))
      (scr_first c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) sc0 (Memref.isWhole_whole _) sc1 (Memref.isWhole_whole _) sc2 (Memref.isWhole_whole _) sc3 (Memref.isWhole_whole _) ((hcond0 ⟨0, hn⟩).mpr (Nat.zero_mod _)) (iblk m c 0 ⟨0, hn⟩) (iblk m c 1 ⟨0, hn⟩) _ _
        (rows_iblk0 m c ⟨0, hn⟩ b hb) (rows_iblk1 m c ⟨0, hn⟩ b hb))
  | succ n ih =>
    intro hn b hb
    by_cases h0 : (n + 1) % 4 = 0
    · exact ScrOK.of_eq (outsAt_A m c ⟨n + 1, hn⟩ h0)
        (scr_first c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) sc0 (Memref.isWhole_whole _) sc1 (Memref.isWhole_whole _) sc2 (Memref.isWhole_whole _) sc3 (Memref.isWhole_whole _) ((hcond0 ⟨n + 1, hn⟩).mpr h0) (iblk m c 0 ⟨n + 1, hn⟩) (iblk m c 1 ⟨n + 1, hn⟩) _ _
          (rows_iblk0 m c ⟨n + 1, hn⟩ b hb) (rows_iblk1 m c ⟨n + 1, hn⟩ b hb))
    · exact ScrOK.of_eq (outsAt_B m c ⟨n + 1, hn⟩ h0) (ScrOK.keep _ _ _ (ih (Nat.lt_of_succ_lt hn) b (by omega)))

/-! ## A tile's value -/

/-- The first output's tile, from a band of the first input, a band of rows of the row softmax and the second input. -/
theorem tile2 (i : grid0.Coords) (x0 : Vec Ideal S1x512x768 .f32) (w3 : Vec Ideal S512x512 .bf16) (q : Vec Ideal S512x768 .bf16)
    (A B : Fin 512 → Fin 768 → EReal) (hx : rows x0 = A) (hw : ∀ p k, w3 (ix2 p k) = rowSoft (logit A B) p k)
    (hq : ∀ k d, q (ix2 k d) = B k d) (u : Fin 1) (r : Fin 128) (col : Fin 3072) (R : Fin 512) (hR : R.val = 128 * (i 1).val + r.val) :
    k0_pay11 (F := Ideal) (tileIn i x0) (bandRows i w3) q (ix3 u r col) = join (A R) (alignedB A B R) ⟨col.val / 768, by have := col.isLt; omega⟩ ⟨col.val % 768, Nat.mod_lt _ (by norm_num)⟩ := by
  rw [pay11_eq, kJoin_apply]
  refine congrArg₂ (fun x y => join x y _ _) ?_ ?_
  · funext d; rw [tileIn_apply i x0 r d R hR, hx]
  · funext d
    rw [dotRows]
    unfold alignedB
    refine Finset.sum_congr rfl fun k _ => ?_
    rw [bandRows_apply i w3 r k R hR, hw, hq]

/-- The second output's tile, from a band of the second input, a band of columns of the column softmax and the first input. -/
theorem tile3 (i : grid0.Coords) (x1 : Vec Ideal S1x512x768 .f32) (w2 : Vec Ideal S512x512 .bf16) (q : Vec Ideal S512x768 .bf16)
    (A B : Fin 512 → Fin 768 → EReal) (hx : rows x1 = B) (hw : ∀ p k, w2 (ix2 p k) = colSoft (logit A B) p k)
    (hq : ∀ k d, q (ix2 k d) = A k d) (u : Fin 1) (r : Fin 128) (col : Fin 3072) (R : Fin 512) (hR : R.val = 128 * (i 1).val + r.val) :
    k0_pay1 (F := Ideal) (k0_pay10 (F := Ideal) (tileIn i x1) (bandCols i w2) q) (ix3 u r col) = join (B R) (alignedA A B R) ⟨col.val / 768, by have := col.isLt; omega⟩ ⟨col.val % 768, Nat.mod_lt _ (by norm_num)⟩ := by
  rw [pay1_10_eq, kJoin_apply]
  refine congrArg₂ (fun x y => join x y _ _) ?_ ?_
  · funext d; rw [tileIn_apply i x1 r d R hR, hx]
  · funext d
    rw [dotCols]
    unfold alignedA
    refine Finset.sum_congr rfl fun k _ => ?_
    rw [bandCols_apply i w2 k r R hR, hw, hq]

/-- The two tiles a first tile of a batch stores, of the blocks it was handed. -/
theorem tilesA (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : cond0 i) (x0 x1 : Vec Ideal S1x512x768 .f32) (A B : Fin 512 → Fin 768 → EReal) (hA : rows x0 = A) (hB : rows x1 = B)
    (u : Fin 1) (r : Fin 128) (col : Fin 3072) (R : Fin 512) (hR : R.val = 128 * (i 1).val + r.val) :
    outA_2 c i arg2 harg2 arg3 harg3 arg4 harg4 arg5 harg5 arg6 harg6 arg7 harg7 arg8 harg8 arg9 harg9 hc0 x0 x1 (ix3 u r col) = join (A R) (alignedB A B R) ⟨col.val / 768, by have := col.isLt; omega⟩ ⟨col.val % 768, Nat.mod_lt _ (by norm_num)⟩ ∧ outA_3 c i arg2 harg2 arg3 harg3 arg4 harg4 arg5 harg5 arg6 harg6 arg7 harg7 arg8 harg8 arg9 harg9 hc0 x0 x1 (ix3 u r col) = join (B R) (alignedA A B R) ⟨col.val / 768, by have := col.isLt; omega⟩ ⟨col.val % 768, Nat.mod_lt _ (by norm_num)⟩ := by
  constructor
  · rw [outA_2_eq]
    exact tile2 i x0 _ _ A B hA (fun p k => by rw [pay97_apply, hA, hB]) (fun k d => by rw [pay5_apply, hB]) u r col R hR
  · rw [outA_3_eq]
    exact tile3 i x1 _ _ A B hB (fun p k => by rw [pay8_apply, hA, hB]) (fun k d => by rw [pay4_apply, hA]) u r col R hR

/-- The two tiles a later tile stores, of the blocks it was handed and scratch arrays that hold the batch. -/
theorem tilesB (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x128x3072 .f32) (harg4 : arg4.IsWhole) (arg5 : Memref sig .tc .vmem S1x128x3072 .f32) (harg5 : arg5.IsWhole) (arg6 : Memref sig .tc .vmem S512x768 .bf16) (harg6 : arg6.IsWhole) (arg7 : Memref sig .tc .vmem S512x768 .bf16) (harg7 : arg7.IsWhole) (arg8 : Memref sig .tc .vmem S512x512 .bf16) (harg8 : arg8.IsWhole) (arg9 : Memref sig .tc .vmem S512x512 .bf16) (harg9 : arg9.IsWhole) (hc0 : ¬cond0 i) (x0 x1 : Vec Ideal S1x512x768 .f32) (xs0 xs1 : Vec Ideal S512x768 .bf16) (xs2 xs3 : Vec Ideal S512x512 .bf16) (A B : Fin 512 → Fin 768 → EReal) (hA : rows x0 = A) (hB : rows x1 = B)
    (h0 : ∀ p d, xs0 (ix2 p d) = A p d) (h1 : ∀ p d, xs1 (ix2 p d) = B p d)
    (h2 : ∀ p q, xs2 (ix2 p q) = colSoft (logit A B) p q) (h3 : ∀ p q, xs3 (ix2 p q) = rowSoft (logit A B) p q)
    (u : Fin 1) (r : Fin 128) (col : Fin 3072) (R : Fin 512) (hR : R.val = 128 * (i 1).val + r.val) :
    outB_2 c i arg2 harg2 arg3 harg3 arg4 harg4 arg5 harg5 arg6 harg6 arg7 harg7 arg8 harg8 arg9 harg9 hc0 x0 x1 xs0 xs1 xs2 xs3 (ix3 u r col) = join (A R) (alignedB A B R) ⟨col.val / 768, by have := col.isLt; omega⟩ ⟨col.val % 768, Nat.mod_lt _ (by norm_num)⟩ ∧ outB_3 c i arg2 harg2 arg3 harg3 arg4 harg4 arg5 harg5 arg6 harg6 arg7 harg7 arg8 harg8 arg9 harg9 hc0 x0 x1 xs0 xs1 xs2 xs3 (ix3 u r col) = join (B R) (alignedA A B R) ⟨col.val / 768, by have := col.isLt; omega⟩ ⟨col.val % 768, Nat.mod_lt _ (by norm_num)⟩ := by
  constructor
  · rw [outB_2_eq]
    exact tile2 i x0 xs3 xs1 A B hA h3 h1 u r col R hR
  · rw [outB_3_eq]
    exact tile3 i x1 xs2 xs0 A B hB h2 h0 u r col R hR

end Cert.KernelIdeal.Tile

end
-- ==== Proof.IdealArrays.lean ====
/-
  From tiles to arrays, concluded: what each grid point leaves in the outputs' buffers is the specification's result at
  the point's batch and rows; every index of a result lies in exactly one written-back block; so each result array ends
  as the specification's function of the argument arrays.
-/
import proofs.«120919_j15779709846002_2_alg».proof.Proof.IdealTile

set_option maxRecDepth 16384

noncomputable section

namespace Cert.KernelIdeal.Tile

open Cert.KernelIdeal Cert.KernelIdeal.Gen Cert.KernelIdeal.Body Cert.KernelIdeal.Pay Cert.Attn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- If the six buffers are a given tuple, their first two components read, at an index, what the tuple's do. -/
theorem outs_of_eq {s : Vec Ideal S1x128x3072 .f32 × Vec Ideal S1x128x3072 .f32 × Vec Ideal S512x768 .bf16 × Vec Ideal S512x768 .bf16 × Vec Ideal S512x512 .bf16 × Vec Ideal S512x512 .bf16} {o2 o3 : Vec Ideal S1x128x3072 .f32} {s0 s1 : Vec Ideal S512x768 .bf16} {s2 s3 : Vec Ideal S512x512 .bf16}
    (e : s = (o2, o3, s0, s1, s2, s3)) {y : S1x128x3072.Idx} {J0 J1 : EReal} (T : o2 y = J0 ∧ o3 y = J1) :
    s.1 y = J0 ∧ s.2.1 y = J1 := by
  subst e; exact T

set_option maxHeartbeats 400000 in
/-- What point `t` leaves in the two outputs' buffers: the specification's results at batch `t / 4`, rows
    `128 (t % 4) + r`. -/
theorem outs_apply (c : Dev nD) (t : Fin cfg0.N) (b : Fin 32) (hb : b.val = t.val / 4) (u : Fin 1) (r : Fin 128) (col : Fin 3072)
    (R : Fin 512) (hR : R.val = 128 * (t.val % 4) + r.val) :
    (outsAt m c t.val t.isLt).1 (ix3 u r col) = out0c (V m c main_arg0) (V m c main_arg1) b R col
    ∧ (outsAt m c t.val t.isLt).2.1 (ix3 u r col) = out1c (V m c main_arg0) (V m c main_arg1) b R col := by
  have hR' : R.val = 128 * ((grid0.coords t) 1).val + r.val := by rw [coord1 t]; exact hR
  have r0 := rows_iblk0 m c t b hb
  have r1 := rows_iblk1 m c t b hb
  have q0 : out0c (V m c main_arg0) (V m c main_arg1) b R col = join ((rowsOf (V m c main_arg0) b) R) (alignedB (rowsOf (V m c main_arg0) b) (rowsOf (V m c main_arg1) b) R) ⟨col.val / 768, by have := col.isLt; omega⟩ ⟨col.val % 768, Nat.mod_lt _ (by norm_num)⟩ := rfl
  have q1 : out1c (V m c main_arg0) (V m c main_arg1) b R col = join ((rowsOf (V m c main_arg1) b) R) (alignedA (rowsOf (V m c main_arg0) b) (rowsOf (V m c main_arg1) b) R) ⟨col.val / 768, by have := col.isLt; omega⟩ ⟨col.val % 768, Nat.mod_lt _ (by norm_num)⟩ := rfl
  rw [q0, q1]
  by_cases h0 : t.val % 4 = 0
  · exact outs_of_eq (outsAt_A m c t h0)
      (tilesA c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) ((hcond0 t).mpr h0) (iblk m c 0 t) (iblk m c 1 t) (rowsOf (V m c main_arg0) b) (rowsOf (V m c main_arg1) b) r0 r1 u r col R hR')
  · have hz : t.val ≠ 0 := fun h => h0 (by rw [h])
    have S := scr_ok m c (t.val - 1) (Nat.lt_of_le_of_lt (Nat.sub_le _ _) t.isLt) b (by omega)
    exact outs_of_eq (outsAt_B m c t h0)
      (tilesB c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) (fun h => h0 ((hcond0 t).mp h)) (iblk m c 0 t) (iblk m c 1 t) (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.1 (outsAt m c (t.val - 1) (Nat.lt_of_le_of_lt (Nat.sub_le _ _) t.isLt)).2.2.2.2.2
        (rowsOf (V m c main_arg0) b) (rowsOf (V m c main_arg1) b) r0 r1 S.1 S.2.1 S.2.2.1 S.2.2.2 u r col R hR')

/-! ## What each point writes back, the cover, and the arrays after the run -/

/-- The specification's result at an index given by its coordinates' values. -/
theorem out0_of_val (X0 X1 : S32x512x768.Idx → EReal) (I : S32x512x3072.Idx) (b : Fin 32) (R : Fin 512) (col : Fin 3072)
    (h0 : (I 0).val = b.val) (h1 : (I 1).val = R.val) (h2 : (I 2).val = col.val) : out0 X0 X1 I = out0c X0 X1 b R col := by
  unfold out0
  congr 1 <;> exact Fin.ext ‹_›
theorem out1_of_val (X0 X1 : S32x512x768.Idx → EReal) (I : S32x512x3072.Idx) (b : Fin 32) (R : Fin 512) (col : Fin 3072)
    (h0 : (I 0).val = b.val) (h1 : (I 1).val = R.val) (h2 : (I 2).val = col.val) : out1 X0 X1 I = out1c X0 X1 b R col := by
  unfold out1
  congr 1 <;> exact Fin.ext ‹_›

theorem flushed2_eq (c : Dev nD) (t : Fin cfg0.N) :
    (dats m 0 c).flushed 2 t = ((cfg0.win 2).blk t).view.read (Elt Ideal) (out0 (V m c main_arg0) (V m c main_arg1)) := by
  show (cfg0.win 2).cut (grid0.coords t) ((dats m 0 c).after 2 t) = _
  rw [after_2]
  funext j
  have hN : t.val < 128 := lt_of_lt_of_eq t.isLt (show cfg0.N = 128 from N_0)
  obtain ⟨-, -, -, -, -, -, e0, e1, e2, -⟩ := idx_facts t
  have hj0 : (j 0).val < 1 := (j 0).isLt
  have hj1 : (j 1).val < 128 := (j 1).isLt
  have hj2 : (j 2).val < 3072 := (j 2).isLt
  have hj : (j : S1x128x3072.Idx) = ix3 (⟨(j 0).val, hj0⟩ : Fin 1) (⟨(j 1).val, hj1⟩ : Fin 128) (⟨(j 2).val, hj2⟩ : Fin 3072) := by
    funext a; match a with | ⟨0, _⟩ => rfl | ⟨1, _⟩ => rfl | ⟨2, _⟩ => rfl
  show (outsAt m c t.val t.isLt).1 j = out0 (V m c main_arg0) (V m c main_arg1) (((cfg0.win 2).blk t).view.emb j)
  refine (congrArg (outsAt m c t.val t.isLt).1 hj).trans ?_
  refine ((outs_apply m c t ⟨t.val / 4, by omega⟩ rfl _ _ _ ⟨128 * (t.val % 4) + (j 1).val, by omega⟩ rfl).1).trans ?_
  refine (out0_of_val _ _ _ _ _ _ ?_ ?_ ?_).symm
  · show win0_2.index t (0 : Fin 3) * 1 + 1 * (j 0).val = t.val / 4; omega
  · show win0_2.index t (1 : Fin 3) * 128 + 1 * (j 1).val = 128 * (t.val % 4) + (j 1).val; omega
  · show win0_2.index t (2 : Fin 3) * 3072 + 1 * (j 2).val = (j 2).val; omega

theorem flushed3_eq (c : Dev nD) (t : Fin cfg0.N) :
    (dats m 0 c).flushed 3 t = ((cfg0.win 3).blk t).view.read (Elt Ideal) (out1 (V m c main_arg0) (V m c main_arg1)) := by
  show (cfg0.win 3).cut (grid0.coords t) ((dats m 0 c).after 3 t) = _
  rw [after_3]
  funext j
  have hN : t.val < 128 := lt_of_lt_of_eq t.isLt (show cfg0.N = 128 from N_0)
  obtain ⟨-, -, -, -, -, -, -, -, -, e0, e1, e2⟩ := idx_facts t
  have hj0 : (j 0).val < 1 := (j 0).isLt
  have hj1 : (j 1).val < 128 := (j 1).isLt
  have hj2 : (j 2).val < 3072 := (j 2).isLt
  have hj : (j : S1x128x3072.Idx) = ix3 (⟨(j 0).val, hj0⟩ : Fin 1) (⟨(j 1).val, hj1⟩ : Fin 128) (⟨(j 2).val, hj2⟩ : Fin 3072) := by
    funext a; match a with | ⟨0, _⟩ => rfl | ⟨1, _⟩ => rfl | ⟨2, _⟩ => rfl
  show (outsAt m c t.val t.isLt).2.1 j = out1 (V m c main_arg0) (V m c main_arg1) (((cfg0.win 3).blk t).view.emb j)
  refine (congrArg (outsAt m c t.val t.isLt).2.1 hj).trans ?_
  refine ((outs_apply m c t ⟨t.val / 4, by omega⟩ rfl _ _ _ ⟨128 * (t.val % 4) + (j 1).val, by omega⟩ rfl).2).trans ?_
  refine (out1_of_val _ _ _ _ _ _ ?_ ?_ ?_).symm
  · show win0_3.index t (0 : Fin 3) * 1 + 1 * (j 0).val = t.val / 4; omega
  · show win0_3.index t (1 : Fin 3) * 128 + 1 * (j 1).val = 128 * (t.val % 4) + (j 1).val; omega
  · show win0_3.index t (2 : Fin 3) * 3072 + 1 * (j 2).val = (j 2).val; omega

/-- An index of a result is in point `t`'s block iff each coordinate is in the block's range on its axis. -/
theorem mem_blk2 (t : Fin cfg0.N) (i : S32x512x3072.Idx) :
    i ∈ ((cfg0.win 2).blk t).view.set ↔ ∀ a : Fin 3, win0_2.index t a * S1x128x3072.size a ≤ (i a).val ∧ (i a).val < win0_2.index t a * S1x128x3072.size a + S1x128x3072.size a := by
  show i ∈ ((View.whole main_v0_0).slice (win0_2.rect t)).set ↔ _
  rw [View.set_slice_whole, Rect.mem_set_unit]
  exact Iff.rfl
theorem mem_blk3 (t : Fin cfg0.N) (i : S32x512x3072.Idx) :
    i ∈ ((cfg0.win 3).blk t).view.set ↔ ∀ a : Fin 3, win0_3.index t a * S1x128x3072.size a ≤ (i a).val ∧ (i a).val < win0_3.index t a * S1x128x3072.size a + S1x128x3072.size a := by
  show i ∈ ((View.whole main_v0_1).slice (win0_3.rect t)).set ↔ _
  rw [View.set_slice_whole, Rect.mem_set_unit]
  exact Iff.rfl

/-- Every index of a result lies in the block of the point `4 · batch + row / 128`, which is written back. -/
theorem cover2 (i : S32x512x3072.Idx) : ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 3072 := (i 2).isLt
  have hN : cfg0.N = 128 := N_0
  refine ⟨⟨4 * (i 0).val + (i 1).val / 128, by omega⟩, flush0_2 _, ?_⟩
  rw [mem_blk2]
  obtain ⟨-, -, -, -, -, -, e0, e1, e2, -⟩ := idx_facts ⟨4 * (i 0).val + (i 1).val / 128, by omega⟩
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 128 ≤ (i 1).val ∧ (i 1).val < win0_2.index _ (1 : Fin 3) * 128 + 128; rw [e1]; dsimp only; omega
  | ⟨2, _⟩ => show win0_2.index _ (2 : Fin 3) * 3072 ≤ (i 2).val ∧ (i 2).val < win0_2.index _ (2 : Fin 3) * 3072 + 3072; rw [e2]; omega
theorem cover3 (i : S32x512x3072.Idx) : ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 3072 := (i 2).isLt
  have hN : cfg0.N = 128 := N_0
  refine ⟨⟨4 * (i 0).val + (i 1).val / 128, by omega⟩, flush0_3 _, ?_⟩
  rw [mem_blk3]
  obtain ⟨-, -, -, -, -, -, -, -, -, e0, e1, e2⟩ := idx_facts ⟨4 * (i 0).val + (i 1).val / 128, by omega⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 128 ≤ (i 1).val ∧ (i 1).val < win0_3.index _ (1 : Fin 3) * 128 + 128; rw [e1]; dsimp only; omega
  | ⟨2, _⟩ => show win0_3.index _ (2 : Fin 3) * 3072 ≤ (i 2).val ∧ (i 2).val < win0_3.index _ (2 : Fin 3) * 3072 + 3072; rw [e2]; omega

/-- The result arrays after the run. -/
theorem final2 (c : Dev nD) : (dats m 0 c).arrAt 2 cfg0.N = out0 (V m c main_arg0) (V m c main_arg1) :=
  (dats m 0 c).arrAt_eq_of_cover 2 (out0 (V m c main_arg0) (V m c main_arg1)) (fun t _ => flushed2_eq m c t) cover2
theorem final3 (c : Dev nD) : (dats m 0 c).arrAt 3 cfg0.N = out1 (V m c main_arg0) (V m c main_arg1) :=
  (dats m 0 c).arrAt_eq_of_cover 3 (out1 (V m c main_arg0) (V m c main_arg1)) (fun t _ => flushed3_eq m c t) cover3

/-- The idealized kernel's run: it ends with its two results at the specification's functions of the argument arrays,
    and the arguments as they were. -/
theorem run : θ_run defs (onTc (τ := τ) (main (F := Ideal))) ⟨m, fun _ => 0, ρ⟩ fun r => ∀ c : Dev nD,
      r.2.mem ((c.tc : Thread nD τ).loc main_v0_0) = out0 (m ((c.tc : Thread nD τ).loc main_arg0)) (m ((c.tc : Thread nD τ).loc main_arg1))
      ∧ r.2.mem ((c.tc : Thread nD τ).loc main_v0_1) = out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tile

end
-- ==== Proof.RefRun.lean ====
/-
  The reference program's run, read back.

  @main is a straight line of 37 host operations, so every weakly fair execution ends with each buffer at the fold of the
  operations' results over the launch contents. That fold is evaluated here in four stretches — the logits; the softmax
  down the columns; the softmax along the rows; the two weighted sums, the differences, the products and the two joins —
  each over ANY contents of the buffers it reads, so that no stretch's value is written out inside another's: the
  logits feed both softmaxes and each softmax's exponentials feed both its sum and its quotient, and written out as one
  expression the result repeats them many times over. Stage by stage, the two results are the last stages of the
  operation-by-operation reading of the program.
-/
import proofs.«120919_j15779709846002_2_alg».proof.Proof.RefReadP
import Idealize.ShloMosaic.Lib.StableHlo.Run

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The logits. -/
abbrev ops1 : List (HloOp τ sig (Elt F)) :=
  [ binary main_arg0 main_arg1 main_v0 ((fun l r => Host.dotGeneral dot_S32x512x768_S32x512x768_S32x512x512_2_2_1_1_0_0 none l r) : (⟨S32x512x768, .f32⟩ : BufTy).Contents (Elt F) → (⟨S32x512x768, .f32⟩ : BufTy).Contents (Elt F) → (⟨S32x512x512, .f32⟩ : BufTy).Contents (Elt F)) ]
/-- The softmax down the columns (axis 1 of the batched logits). -/
abbrev ops2 : List (HloOp τ sig (Elt F)) :=
  [ nullary main_cst (constant S_ .f32 0xFF800000#32),
    binary main_v0 main_cst main_v1 ((fun x v => Host.reduce FloatOps.maximumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
    nullary main_cst_0 (constant S_ .f32 0xFF800000#32),
    unary main_cst_0 main_v2 (broadcastInDim S32x512 ![] bcast_S_S32x512 : (⟨S_, .f32⟩ : BufTy).Contents (Elt F) → (⟨S32x512, .f32⟩ : BufTy).Contents (Elt F)),
    binary main_v2 main_v1 main_v3 (maximumf : (⟨S32x512, .f32⟩ : BufTy).Contents (Elt F) → (⟨S32x512, .f32⟩ : BufTy).Contents (Elt F) → (⟨S32x512, .f32⟩ : BufTy).Contents (Elt F)),
    unary main_v3 main_v4 (broadcastInDim S32x1x512 ![0, 2] bcast_S32x512_S32x1x512_0_2 : (⟨S32x512, .f32⟩ : BufTy).Contents (Elt F) → (⟨S32x1x512, .f32⟩ : BufTy).Contents (Elt F)),
    unary main_v4 main_v5 (broadcastInDim S32x512x512 ![0, 1, 2] bcast_S32x1x512_S32x512x512_0_1_2 : (⟨S32x1x512, .f32⟩ : BufTy).Contents (Elt F) → (⟨S32x512x512, .f32⟩ : BufTy).Contents (Elt F)),
    binary main_v0 main_v5 main_v6 (subf : (⟨S32x512x512, .f32⟩ : BufTy).Contents (Elt F) → (⟨S32x512x512, .f32⟩ : BufTy).Contents (Elt F) → (⟨S32x512x512, .f32⟩ : BufTy).Contents (Elt F)),
    unary main_v6 main_v7 (Host.exp : (⟨S32x512x512, .f32⟩ : BufTy).Contents (Elt F) → (⟨S32x512x512, .f32⟩ : BufTy).Contents (Elt F)),
    nullary main_cst_1 (constant S_ .f32 0x00000000#32),
    binary main_v7 main_cst_1 main_v8 ((fun x v => Host.reduceAdd x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
    unary main_v8 main_v9 (broadcastInDim S32x1x512 ![0, 2] bcast_S32x512_S32x1x512_0_2 : (⟨S32x512, .f32⟩ : BufTy).Contents (Elt F) → (⟨S32x1x512, .f32⟩ : BufTy).Contents (Elt F)),
    unary main_v9 main_v10 (broadcastInDim S32x512x512 ![0, 1, 2] bcast_S32x1x512_S32x512x512_0_1_2 : (⟨S32x1x512, .f32⟩ : BufTy).Contents (Elt F) → (⟨S32x512x512, .f32⟩ : BufTy).Contents (Elt F)),
    binary main_v7 main_v10 main_v11 (Host.divf : (⟨S32x512x512, .f32⟩ : BufTy).Contents (Elt F) → (⟨S32x512x512, .f32⟩ : BufTy).Contents (Elt F) → (⟨S32x512x512, .f32⟩ : BufTy).Contents (Elt F)) ]
/-- The softmax along the rows (axis 2). -/
abbrev ops3 : List (HloOp τ sig (Elt F)) :=
  [ nullary main_cst_2 (constant S_ .f32 0xFF800000#32),
    binary main_v0 main_cst_2 main_v12 ((fun x v => Host.reduce FloatOps.maximumf x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    nullary main_cst_3 (constant S_ .f32 0xFF800000#32),
    unary main_cst_3 main_v13 (broadcastInDim S32x512 ![] bcast_S_S32x512 : (⟨S_, .f32⟩ : BufTy).Contents (Elt F) → (⟨S32x512, .f32⟩ : BufTy).Contents (Elt F)),
    binary main_v13 main_v12 main_v14 (maximumf : (⟨S32x512, .f32⟩ : BufTy).Contents (Elt F) → (⟨S32x512, .f32⟩ : BufTy).Contents (Elt F) → (⟨S32x512, .f32⟩ : BufTy).Contents (Elt F)),
    unary main_v14 main_v15 (broadcastInDim S32x512x1 ![0, 1] bcast_S32x512_S32x512x1_0_1 : (⟨S32x512, .f32⟩ : BufTy).Contents (Elt F) → (⟨S32x512x1, .f32⟩ : BufTy).Contents (Elt F)),
    unary main_v15 main_v16 (broadcastInDim S32x512x512 ![0, 1, 2] bcast_S32x512x1_S32x512x512_0_1_2 : (⟨S32x512x1, .f32⟩ : BufTy).Contents (Elt F) → (⟨S32x512x512, .f32⟩ : BufTy).Contents (Elt F)),
    binary main_v0 main_v16 main_v17 (subf : (⟨S32x512x512, .f32⟩ : BufTy).Contents (Elt F) → (⟨S32x512x512, .f32⟩ : BufTy).Contents (Elt F) → (⟨S32x512x512, .f32⟩ : BufTy).Contents (Elt F)),
    unary main_v17 main_v18 (Host.exp : (⟨S32x512x512, .f32⟩ : BufTy).Contents (Elt F) → (⟨S32x512x512, .f32⟩ : BufTy).Contents (Elt F)),
    nullary main_cst_4 (constant S_ .f32 0x00000000#32),
    binary main_v18 main_cst_4 main_v19 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v19 main_v20 (broadcastInDim S32x512x1 ![0, 1] bcast_S32x512_S32x512x1_0_1 : (⟨S32x512, .f32⟩ : BufTy).Contents (Elt F) → (⟨S32x512x1, .f32⟩ : BufTy).Contents (Elt F)),
    unary main_v20 main_v21 (broadcastInDim S32x512x512 ![0, 1, 2] bcast_S32x512x1_S32x512x512_0_1_2 : (⟨S32x512x1, .f32⟩ : BufTy).Contents (Elt F) → (⟨S32x512x512, .f32⟩ : BufTy).Contents (Elt F)),
    binary main_v18 main_v21 main_v22 (Host.divf : (⟨S32x512x512, .f32⟩ : BufTy).Contents (Elt F) → (⟨S32x512x512, .f32⟩ : BufTy).Contents (Elt F) → (⟨S32x512x512, .f32⟩ : BufTy).Contents (Elt F)) ]
/-- The weighted sums, the differences and products, and the two joins. -/
abbrev ops4 : List (HloOp τ sig (Elt F)) :=
  [ binary main_v11 main_arg0 main_v23 ((fun l r => Host.dotGeneral dot_S32x512x512_S32x512x768_S32x512x768_1_1_2_2_0_0 none l r) : (⟨S32x512x512, .f32⟩ : BufTy).Contents (Elt F) → (⟨S32x512x768, .f32⟩ : BufTy).Contents (Elt F) → (⟨S32x512x768, .f32⟩ : BufTy).Contents (Elt F)),
    binary main_v22 main_arg1 main_v24 ((fun l r => Host.dotGeneral dot_S32x512x512_S32x512x768_S32x512x768_2_1_1_2_0_0 none l r) : (⟨S32x512x512, .f32⟩ : BufTy).Contents (Elt F) → (⟨S32x512x768, .f32⟩ : BufTy).Contents (Elt F) → (⟨S32x512x768, .f32⟩ : BufTy).Contents (Elt F)),
    binary main_arg0 main_v24 main_v25 (subf : (⟨S32x512x768, .f32⟩ : BufTy).Contents (Elt F) → (⟨S32x512x768, .f32⟩ : BufTy).Contents (Elt F) → (⟨S32x512x768, .f32⟩ : BufTy).Contents (Elt F)),
    binary main_arg0 main_v24 main_v26 (mulf : (⟨S32x512x768, .f32⟩ : BufTy).Contents (Elt F) → (⟨S32x512x768, .f32⟩ : BufTy).Contents (Elt F) → (⟨S32x512x768, .f32⟩ : BufTy).Contents (Elt F)),
    nary ![main_arg0, main_v24, main_v25, main_v26] main_v27 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2),
    binary main_arg1 main_v23 main_v28 (subf : (⟨S32x512x768, .f32⟩ : BufTy).Contents (Elt F) → (⟨S32x512x768, .f32⟩ : BufTy).Contents (Elt F) → (⟨S32x512x768, .f32⟩ : BufTy).Contents (Elt F)),
    binary main_arg1 main_v23 main_v29 (mulf : (⟨S32x512x768, .f32⟩ : BufTy).Contents (Elt F) → (⟨S32x512x768, .f32⟩ : BufTy).Contents (Elt F) → (⟨S32x512x768, .f32⟩ : BufTy).Contents (Elt F)),
    nary ![main_arg1, main_v23, main_v28, main_v29] main_v30 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2) ]

/-- @main's 37 operations, in order. -/
abbrev ops : List (HloOp τ sig (Elt F)) := ops1 ++ (ops2 ++ (ops3 ++ ops4))

theorem main_eq (c : Dev nD) : main (F := F) c = seq (ops (F := F)) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., nary_bufs_sub .., binary_bufs_sub .., binary_bufs_sub .., nary_bufs_sub ..⟩

/-- The contents after one stretch then another. -/
theorem after_app (l₁ l₂ : List (HloOp τ sig (Elt F))) (V : Valuation τ sig (Elt F)) : after (l₁ ++ l₂) V = after l₂ (after l₁ V) := by
  induction l₁ generalizing V with
  | nil => rfl
  | cons op l ih => exact ih (op.result V)

/-! ## The four stretches, each over any contents -/

section Stretches
variable (W : Valuation τ sig (Elt F)) (x0 x1 : (⟨S32x512x768, .f32⟩ : BufTy).Contents (Elt F))

theorem s1_v0 : after ops1 W (Proc.devRef .tc main_v0) = val_main_v0 (F := F) (W (Proc.devRef .tc main_arg0)) (W (Proc.devRef .tc main_arg1)) := by
  after_results_simp; rfl
theorem s1_a0 : after ops1 W (Proc.devRef .tc main_arg0) = W (Proc.devRef .tc main_arg0) := by after_results_simp
theorem s1_a1 : after ops1 W (Proc.devRef .tc main_arg1) = W (Proc.devRef .tc main_arg1) := by after_results_simp

theorem s2_v11 (h0 : W (Proc.devRef .tc main_v0) = val_main_v0 (F := F) x0 x1) : after ops2 W (Proc.devRef .tc main_v11) = val_main_v11 (F := F) x0 x1 := by
  after_results_simp; rw [h0]; rfl
theorem s2_a0 : after ops2 W (Proc.devRef .tc main_arg0) = W (Proc.devRef .tc main_arg0) := by after_results_simp
theorem s2_a1 : after ops2 W (Proc.devRef .tc main_arg1) = W (Proc.devRef .tc main_arg1) := by after_results_simp
theorem s2_v0 : after ops2 W (Proc.devRef .tc main_v0) = W (Proc.devRef .tc main_v0) := by after_results_simp

theorem s3_v22 (h0 : W (Proc.devRef .tc main_v0) = val_main_v0 (F := F) x0 x1) : after ops3 W (Proc.devRef .tc main_v22) = val_main_v22 (F := F) x0 x1 := by
  after_results_simp; rw [h0]; rfl
theorem s3_a0 : after ops3 W (Proc.devRef .tc main_arg0) = W (Proc.devRef .tc main_arg0) := by after_results_simp
theorem s3_a1 : after ops3 W (Proc.devRef .tc main_arg1) = W (Proc.devRef .tc main_arg1) := by after_results_simp
theorem s3_v11 : after ops3 W (Proc.devRef .tc main_v11) = W (Proc.devRef .tc main_v11) := by after_results_simp

theorem s4_v27 (ha0 : W (Proc.devRef .tc main_arg0) = x0) (ha1 : W (Proc.devRef .tc main_arg1) = x1)
    (h11 : W (Proc.devRef .tc main_v11) = val_main_v11 (F := F) x0 x1) (h22 : W (Proc.devRef .tc main_v22) = val_main_v22 (F := F) x0 x1) :
    after ops4 W (Proc.devRef .tc main_v27) = val_main_v27 (F := F) x0 x1 := by
  after_results
  simp only [Matrix.cons_val]
  repeat (first | rw [binary_result] | (rw [binary_result_ne]; rotate_left; decide) | (rw [nary_result_ne]; rotate_left; decide))
  rw [ha0, ha1, h22]; rfl
theorem s4_v30 (ha0 : W (Proc.devRef .tc main_arg0) = x0) (ha1 : W (Proc.devRef .tc main_arg1) = x1)
    (h11 : W (Proc.devRef .tc main_v11) = val_main_v11 (F := F) x0 x1) (h22 : W (Proc.devRef .tc main_v22) = val_main_v22 (F := F) x0 x1) :
    after ops4 W (Proc.devRef .tc main_v30) = val_main_v30 (F := F) x0 x1 := by
  after_results
  simp only [Matrix.cons_val]
  repeat (first | rw [binary_result] | (rw [binary_result_ne]; rotate_left; decide) | (rw [nary_result_ne]; rotate_left; decide))
  rw [ha0, ha1, h11]; rfl
theorem s4_a0 : after ops4 W (Proc.devRef .tc main_arg0) = W (Proc.devRef .tc main_arg0) := by after_results_simp
theorem s4_a1 : after ops4 W (Proc.devRef .tc main_arg1) = W (Proc.devRef .tc main_arg1) := by after_results_simp

end Stretches

/-- The whole line, from any contents: the two results are the last stages of the arguments' contents, and the
    arguments are as they were. -/
theorem after_ops (V : Valuation τ sig (Elt F)) :
    after ops V (Proc.devRef .tc main_v27) = val_main_v27 (F := F) (V (Proc.devRef .tc main_arg0)) (V (Proc.devRef .tc main_arg1))
    ∧ after ops V (Proc.devRef .tc main_v30) = val_main_v30 (F := F) (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  have e : after (ops (F := F)) V = after ops4 (after ops3 (after ops2 (after ops1 V))) := by
    show after (ops1 ++ (ops2 ++ (ops3 ++ ops4))) V = _
    rw [after_app, after_app, after_app]
  rw [e]
  generalize hW1 : after ops1 V = W1
  have a10 : W1 (Proc.devRef .tc main_arg0) = V (Proc.devRef .tc main_arg0) := by rw [← hW1]; exact s1_a0 V
  have a11 : W1 (Proc.devRef .tc main_arg1) = V (Proc.devRef .tc main_arg1) := by rw [← hW1]; exact s1_a1 V
  have v10 : W1 (Proc.devRef .tc main_v0) = val_main_v0 (F := F) (V (Proc.devRef .tc main_arg0)) (V (Proc.devRef .tc main_arg1)) := by rw [← hW1]; exact s1_v0 V
  generalize hW2 : after ops2 W1 = W2
  have a20 : W2 (Proc.devRef .tc main_arg0) = V (Proc.devRef .tc main_arg0) := by rw [← hW2]; exact (s2_a0 W1).trans a10
  have a21 : W2 (Proc.devRef .tc main_arg1) = V (Proc.devRef .tc main_arg1) := by rw [← hW2]; exact (s2_a1 W1).trans a11
  have v20 : W2 (Proc.devRef .tc main_v0) = val_main_v0 (F := F) (V (Proc.devRef .tc main_arg0)) (V (Proc.devRef .tc main_arg1)) := by rw [← hW2]; exact (s2_v0 W1).trans v10
  have v211 : W2 (Proc.devRef .tc main_v11) = val_main_v11 (F := F) (V (Proc.devRef .tc main_arg0)) (V (Proc.devRef .tc main_arg1)) := by rw [← hW2]; exact s2_v11 W1 _ _ v10
  generalize hW3 : after ops3 W2 = W3
  have a30 : W3 (Proc.devRef .tc main_arg0) = V (Proc.devRef .tc main_arg0) := by rw [← hW3]; exact (s3_a0 W2).trans a20
  have a31 : W3 (Proc.devRef .tc main_arg1) = V (Proc.devRef .tc main_arg1) := by rw [← hW3]; exact (s3_a1 W2).trans a21
  have v311 : W3 (Proc.devRef .tc main_v11) = val_main_v11 (F := F) (V (Proc.devRef .tc main_arg0)) (V (Proc.devRef .tc main_arg1)) := by rw [← hW3]; exact (s3_v11 W2).trans v211
  have v322 : W3 (Proc.devRef .tc main_v22) = val_main_v22 (F := F) (V (Proc.devRef .tc main_arg0)) (V (Proc.devRef .tc main_arg1)) := by rw [← hW3]; exact s3_v22 W2 _ _ v20
  exact ⟨s4_v27 W3 _ _ a30 a31 v311 v322, s4_v30 W3 _ _ a30 a31 v311 v322, (s4_a0 W3).trans a30, (s4_a1 W3).trans a31⟩

/-- Every weakly fair execution of the reference terminates with its two results at the last stages of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = val_main_v27 (F := F) (m ((c.tc : Thread nD τ).loc main_arg0)) (m ((c.tc : Thread nD τ).loc main_arg1))
      ∧ r.2.mem ((c.tc : Thread nD τ).loc main_v30) = val_main_v30 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨e27, e30, e0, e1⟩ := after_ops (F := F) (launchContents m c)
      exact ⟨(h c main_v27).trans e27, (h c main_v30).trans e30, (h c main_arg0).trans e0, (h c main_arg1).trans e1⟩)
    (run_seq scopedRefs_eq scopedSems_eq defs main (fun _ => ops) main_eq (fun _ => ops_sub) m ρ)

end Cert.ReferenceIdeal.RefRun

end
-- ==== Proof.RefValue.lean ====
/-
  The reference computes the specification.

  Read one operation at a time, batch `b` of the reference is: the logits of the batch's two matrices (a product
  contracting the last axis of both); along axis 1 and along axis 2 of the logits the same seven steps — the maximum from
  −∞, once more against −∞, spread back, subtracted, exponentiated, summed from zero, divided —, which are the
  specification's column-wise and row-wise softmax; the two products contracting the softmaxes against the inputs; and
  each result the join of an input, its weighted partner, their difference and their product.
  The host's reductions are the fold of `max` and the sum over the reduced axis's coordinates, the host's division and
  exponential the extended reals' own.
-/
import proofs.«120919_j15779709846002_2_alg».proof.Proof.RefReadP
import proofs.«120919_j15779709846002_2_alg».proof.Proof.AttnSpec
import Idealize.ShloMosaic.PureOps.Ideal.Laws
import Idealize.ShloMosaic.Lib.Pipeline.Value

set_option maxRecDepth 16384

noncomputable section

namespace Cert.ReferenceIdeal.RefValue

open Cert.ReferenceIdeal Cert.ReferenceIdeal.Gen Cert.ReferenceIdeal.ReadP Cert.Attn
open Idealize.ShloMosaic Idealize.ShloMosaic.ValueIdx

variable (x0 x1 : (⟨S32x512x768, .f32⟩ : BufTy).Contents (Elt Ideal))

/-! ## The logits -/

theorem v0_at (b : Fin 32) (i j : Fin 512) : val_main_v0 (F := Ideal) x0 x1 (ix3 b i j) = logit (rowsOf x0 b) (rowsOf x1 b) i j := by
  rw [val_main_v0_apply]
  unfold logit rowsOf
  refine Finset.sum_congr rfl fun k _ => ?_
  have el : lidx_main_v0 (ix3 b i j) k = ix3 b i k := (funext fun a => Fin.ext (by match a with | ⟨0, _⟩ => rfl | ⟨1, _⟩ => rfl | ⟨2, _⟩ => rfl))
  have er : ridx_main_v0 (ix3 b i j) k = ix3 b j k := (funext fun a => Fin.ext (by match a with | ⟨0, _⟩ => rfl | ⟨1, _⟩ => rfl | ⟨2, _⟩ => rfl))
  rw [el, er]

theorem logits_eq (b : Fin 32) : (fun p q => val_main_v0 (F := Ideal) x0 x1 (ix3 b p q)) = logit (rowsOf x0 b) (rowsOf x1 b) :=
  funext fun p => funext fun q => v0_at x0 x1 b p q

/-! ## The softmax down the columns (axis 1 of the batched logits) -/

theorem v1_at (b : Fin 32) (j : Fin 512) :
    val_main_v1 (F := Ideal) x0 x1 (ix2 b j) = (Finset.univ : Finset (Fin 512)).fold max NEG (fun i => val_main_v0 (F := Ideal) x0 x1 (ix3 b i j)) := by
  unfold val_main_v1
  refine (Host.reduce_eq_fold_single (FloatOps.maximumf (F := Ideal) (φ := .f32)) (val_main_v0 (F := Ideal) x0 x1) (val_main_cst (F := Ideal))
    reducesTo_S32x512x512_S32x512_d1 (by decide) h_S_ (ix2 b j)).trans ?_
  exact Finset.fold_congr (fun k _ => congrArg (val_main_v0 (F := Ideal) x0 x1) (funext fun a => Fin.ext (by match a with | ⟨0, _⟩ => rfl | ⟨1, _⟩ => rfl | ⟨2, _⟩ => rfl)))

theorem v3_at (b : Fin 32) (j : Fin 512) : val_main_v3 (F := Ideal) x0 x1 (ix2 b j) = colMax (fun p q => val_main_v0 (F := Ideal) x0 x1 (ix3 b p q)) j := by
  rw [val_main_v3_apply, val_main_v2_apply, val_main_cst_0_apply, v1_at]
  rfl

theorem v5_at (b : Fin 32) (i j : Fin 512) : val_main_v5 (F := Ideal) x0 x1 (ix3 b i j) = val_main_v3 (F := Ideal) x0 x1 (ix2 b j) := by
  rw [val_main_v5_apply, val_main_v4_apply]
  exact congrArg (val_main_v3 (F := Ideal) x0 x1) (funext fun a => Fin.ext (by match a with | ⟨0, _⟩ => rfl | ⟨1, _⟩ => rfl))

theorem v7_at (b : Fin 32) (i j : Fin 512) :
    val_main_v7 (F := Ideal) x0 x1 (ix3 b i j) = Ideal.exp (val_main_v0 (F := Ideal) x0 x1 (ix3 b i j) - colMax (fun p q => val_main_v0 (F := Ideal) x0 x1 (ix3 b p q)) j) := by
  rw [val_main_v7_apply, val_main_v6_apply, v5_at, v3_at]
  rfl

theorem v8_at (b : Fin 32) (j : Fin 512) : val_main_v8 (F := Ideal) x0 x1 (ix2 b j) = ∑ k : Fin 512, val_main_v7 (F := Ideal) x0 x1 (ix3 b k j) := by
  rw [val_main_v8_apply]
  show Ideal.ofBits .f32 0x00000000#32 + _ = _
  rw [Ideal.ofBits_zero_f32, zero_add]
  exact Finset.sum_congr rfl fun k _ => congrArg (val_main_v7 (F := Ideal) x0 x1) (funext fun a => Fin.ext (by match a with | ⟨0, _⟩ => rfl | ⟨1, _⟩ => rfl | ⟨2, _⟩ => rfl))

theorem v10_at (b : Fin 32) (i j : Fin 512) : val_main_v10 (F := Ideal) x0 x1 (ix3 b i j) = val_main_v8 (F := Ideal) x0 x1 (ix2 b j) := by
  rw [val_main_v10_apply, val_main_v9_apply]
  exact congrArg (val_main_v8 (F := Ideal) x0 x1) (funext fun a => Fin.ext (by match a with | ⟨0, _⟩ => rfl | ⟨1, _⟩ => rfl))

theorem v11_at (b : Fin 32) (i j : Fin 512) : val_main_v11 (F := Ideal) x0 x1 (ix3 b i j) = colSoft (logit (rowsOf x0 b) (rowsOf x1 b)) i j := by
  rw [val_main_v11_apply, v10_at, v8_at, v7_at, ← logits_eq]
  unfold colSoft
  show Ideal.div _ _ = _
  exact congrArg (Ideal.div _) (Finset.sum_congr rfl fun k _ => v7_at x0 x1 b k j)

/-! ## The softmax along the rows (axis 2) -/

theorem v12_at (b : Fin 32) (i : Fin 512) :
    val_main_v12 (F := Ideal) x0 x1 (ix2 b i) = (Finset.univ : Finset (Fin 512)).fold max NEG (fun j => val_main_v0 (F := Ideal) x0 x1 (ix3 b i j)) := by
  unfold val_main_v12
  refine (Host.reduce_eq_fold_single (FloatOps.maximumf (F := Ideal) (φ := .f32)) (val_main_v0 (F := Ideal) x0 x1) (val_main_cst_2 (F := Ideal))
    reducesTo_S32x512x512_S32x512_d2 (by decide) h_S_ (ix2 b i)).trans ?_
  exact Finset.fold_congr (fun k _ => congrArg (val_main_v0 (F := Ideal) x0 x1) (funext fun a => Fin.ext (by match a with | ⟨0, _⟩ => rfl | ⟨1, _⟩ => rfl | ⟨2, _⟩ => rfl)))

theorem v14_at (b : Fin 32) (i : Fin 512) : val_main_v14 (F := Ideal) x0 x1 (ix2 b i) = rowMax (fun p q => val_main_v0 (F := Ideal) x0 x1 (ix3 b p q)) i := by
  rw [val_main_v14_apply, val_main_v13_apply, val_main_cst_3_apply, v12_at]
  rfl

theorem v16_at (b : Fin 32) (i j : Fin 512) : val_main_v16 (F := Ideal) x0 x1 (ix3 b i j) = val_main_v14 (F := Ideal) x0 x1 (ix2 b i) := by
  rw [val_main_v16_apply, val_main_v15_apply]
  exact congrArg (val_main_v14 (F := Ideal) x0 x1) (funext fun a => Fin.ext (by match a with | ⟨0, _⟩ => rfl | ⟨1, _⟩ => rfl))

theorem v18_at (b : Fin 32) (i j : Fin 512) :
    val_main_v18 (F := Ideal) x0 x1 (ix3 b i j) = Ideal.exp (val_main_v0 (F := Ideal) x0 x1 (ix3 b i j) - rowMax (fun p q => val_main_v0 (F := Ideal) x0 x1 (ix3 b p q)) i) := by
  rw [val_main_v18_apply, val_main_v17_apply, v16_at, v14_at]
  rfl

theorem v19_at (b : Fin 32) (i : Fin 512) : val_main_v19 (F := Ideal) x0 x1 (ix2 b i) = ∑ k : Fin 512, val_main_v18 (F := Ideal) x0 x1 (ix3 b i k) := by
  rw [val_main_v19_apply]
  show Ideal.ofBits .f32 0x00000000#32 + _ = _
  rw [Ideal.ofBits_zero_f32, zero_add]
  exact Finset.sum_congr rfl fun k _ => congrArg (val_main_v18 (F := Ideal) x0 x1) (funext fun a => Fin.ext (by match a with | ⟨0, _⟩ => rfl | ⟨1, _⟩ => rfl | ⟨2, _⟩ => rfl))

theorem v21_at (b : Fin 32) (i j : Fin 512) : val_main_v21 (F := Ideal) x0 x1 (ix3 b i j) = val_main_v19 (F := Ideal) x0 x1 (ix2 b i) := by
  rw [val_main_v21_apply, val_main_v20_apply]
  exact congrArg (val_main_v19 (F := Ideal) x0 x1) (funext fun a => Fin.ext (by match a with | ⟨0, _⟩ => rfl | ⟨1, _⟩ => rfl))

theorem v22_at (b : Fin 32) (i j : Fin 512) : val_main_v22 (F := Ideal) x0 x1 (ix3 b i j) = rowSoft (logit (rowsOf x0 b) (rowsOf x1 b)) i j := by
  rw [val_main_v22_apply, v21_at, v19_at, v18_at, ← logits_eq]
  unfold rowSoft
  show Ideal.div _ _ = _
  exact congrArg (Ideal.div _) (Finset.sum_congr rfl fun k _ => v18_at x0 x1 b i k)

/-! ## The weighted sums -/

theorem v23_at (b : Fin 32) (j : Fin 512) (d : Fin 768) : val_main_v23 (F := Ideal) x0 x1 (ix3 b j d) = alignedA (rowsOf x0 b) (rowsOf x1 b) j d := by
  rw [val_main_v23_apply]
  unfold alignedA
  refine Finset.sum_congr rfl fun k _ => ?_
  have el : lidx_main_v23 (ix3 b j d) k = ix3 b k j := (funext fun a => Fin.ext (by match a with | ⟨0, _⟩ => rfl | ⟨1, _⟩ => rfl | ⟨2, _⟩ => rfl))
  have er : ridx_main_v23 (ix3 b j d) k = ix3 b k d := (funext fun a => Fin.ext (by match a with | ⟨0, _⟩ => rfl | ⟨1, _⟩ => rfl | ⟨2, _⟩ => rfl))
  rw [el, er, v11_at]
  rfl

theorem v24_at (b : Fin 32) (i : Fin 512) (d : Fin 768) : val_main_v24 (F := Ideal) x0 x1 (ix3 b i d) = alignedB (rowsOf x0 b) (rowsOf x1 b) i d := by
  rw [val_main_v24_apply]
  unfold alignedB
  refine Finset.sum_congr rfl fun k _ => ?_
  have el : lidx_main_v24 (ix3 b i d) k = ix3 b i k := (funext fun a => Fin.ext (by match a with | ⟨0, _⟩ => rfl | ⟨1, _⟩ => rfl | ⟨2, _⟩ => rfl))
  have er : ridx_main_v24 (ix3 b i d) k = ix3 b k d := (funext fun a => Fin.ext (by match a with | ⟨0, _⟩ => rfl | ⟨1, _⟩ => rfl | ⟨2, _⟩ => rfl))
  rw [el, er, v22_at]
  rfl

/-! ## The joins -/

theorem concat4_apply (f : Fin 4 → (S32x512x768.Idx → EReal))
    (h : Shape.Concatenates [S32x512x768, S32x512x768, S32x512x768, S32x512x768] S32x512x3072 2)
    (b : Fin 32) (i : Fin 512) (col : Fin 3072) (n : Fin 4) (d : Fin 768) (hn : col.val / 768 = n.val) (hd : d.val = col.val % 768) :
    concatenate S32x512x3072 2 [⟨S32x512x768, f 0⟩, ⟨S32x512x768, f 1⟩, ⟨S32x512x768, f 2⟩, ⟨S32x512x768, f 3⟩] h (ix3 b i col) = f n (ix3 b i d) := by
  refine concatenate_ofFn_apply (t := S32x512x3072) (s₁ := S32x512x768) 2 f h rfl 768 rfl (ix3 b i col) n hn (ix3 b i d) hd ?_
  intro a ha
  match a with
  | ⟨0, _⟩ => rfl
  | ⟨1, _⟩ => rfl
  | ⟨2, _⟩ => exact absurd rfl ha

theorem v27_at (b : Fin 32) (i : Fin 512) (col : Fin 3072) : val_main_v27 (F := Ideal) x0 x1 (ix3 b i col) = out0c x0 x1 b i col := by
  unfold val_main_v27 out0c
  refine (concat4_apply ![x0, val_main_v24 (F := Ideal) x0 x1, val_main_v25 (F := Ideal) x0 x1, val_main_v26 (F := Ideal) x0 x1] _ b i col ⟨col.val / 768, by have := col.isLt; omega⟩
    ⟨col.val % 768, Nat.mod_lt _ (by norm_num)⟩ rfl rfl).trans ?_
  generalize (⟨col.val / 768, by have := col.isLt; omega⟩ : Fin 4) = n
  generalize (⟨col.val % 768, Nat.mod_lt _ (by norm_num)⟩ : Fin 768) = d
  fin_cases n
  · rfl
  · exact v24_at x0 x1 b i d
  · show val_main_v25 (F := Ideal) x0 x1 (ix3 b i d) = rowsOf x0 b i d - alignedB (rowsOf x0 b) (rowsOf x1 b) i d
    rw [val_main_v25_apply, v24_at]; rfl
  · show val_main_v26 (F := Ideal) x0 x1 (ix3 b i d) = rowsOf x0 b i d * alignedB (rowsOf x0 b) (rowsOf x1 b) i d
    rw [val_main_v26_apply, v24_at]; rfl

theorem v30_at (b : Fin 32) (j : Fin 512) (col : Fin 3072) : val_main_v30 (F := Ideal) x0 x1 (ix3 b j col) = out1c x0 x1 b j col := by
  unfold val_main_v30 out1c
  refine (concat4_apply ![x1, val_main_v23 (F := Ideal) x0 x1, val_main_v28 (F := Ideal) x0 x1, val_main_v29 (F := Ideal) x0 x1] _ b j col ⟨col.val / 768, by have := col.isLt; omega⟩
    ⟨col.val % 768, Nat.mod_lt _ (by norm_num)⟩ rfl rfl).trans ?_
  generalize (⟨col.val / 768, by have := col.isLt; omega⟩ : Fin 4) = n
  generalize (⟨col.val % 768, Nat.mod_lt _ (by norm_num)⟩ : Fin 768) = d
  fin_cases n
  · rfl
  · exact v23_at x0 x1 b j d
  · show val_main_v28 (F := Ideal) x0 x1 (ix3 b j d) = rowsOf x1 b j d - alignedA (rowsOf x0 b) (rowsOf x1 b) j d
    rw [val_main_v28_apply, v23_at]; rfl
  · show val_main_v29 (F := Ideal) x0 x1 (ix3 b j d) = rowsOf x1 b j d * alignedA (rowsOf x0 b) (rowsOf x1 b) j d
    rw [val_main_v29_apply, v23_at]; rfl

/-- The reference's two results are the specification's. -/
theorem v27_eq : val_main_v27 (F := Ideal) x0 x1 = out0 x0 x1 := by
  funext I
  have hI : I = ix3 (⟨(I 0).val, (I 0).isLt⟩ : Fin 32) (⟨(I 1).val, (I 1).isLt⟩ : Fin 512) (⟨(I 2).val, (I 2).isLt⟩ : Fin 3072) := by
    funext a; match a with | ⟨0, _⟩ => rfl | ⟨1, _⟩ => rfl | ⟨2, _⟩ => rfl
  refine (congrArg (val_main_v27 (F := Ideal) x0 x1) hI).trans ?_
  exact v27_at x0 x1 _ _ _
theorem v30_eq : val_main_v30 (F := Ideal) x0 x1 = out1 x0 x1 := by
  funext I
  have hI : I = ix3 (⟨(I 0).val, (I 0).isLt⟩ : Fin 32) (⟨(I 1).val, (I 1).isLt⟩ : Fin 512) (⟨(I 2).val, (I 2).isLt⟩ : Fin 3072) := by
    funext a; match a with | ⟨0, _⟩ => rfl | ⟨1, _⟩ => rfl | ⟨2, _⟩ => rfl
  refine (congrArg (val_main_v30 (F := Ideal) x0 x1) hI).trans ?_
  exact v30_at x0 x1 _ _ _

end Cert.ReferenceIdeal.RefValue

end
-- ==== Proof.lean ====
/-
  Dual-softmax cross-attention, fused, against its plain reference: the certificate.

  For each of 32 batches, from two 512 x 768 inputs `q1`, `q2`: the logits `L i j = Σ_d q1 i d · q2 j d`; the softmax
  of `L` down its columns and along its rows; `q2`'s rows averaged by the row softmax and `q1`'s by the column softmax;
  and each input joined with its averaged partner, their difference and their product into a 512 x 3072 result.

  The kernel runs a grid of (batch, tile of 128 rows). The first tile of a batch casts the batch's inputs, forms the
  logits and both softmaxes and keeps all four in scratch; every tile reads a band of the inputs and of the kept weights
  and writes one 128 x 3072 tile of each result. The reference is 37 host operations on whole arrays.
  On the extended reals the casts are the identity, a product into a zero accumulator and the host's contraction are
  the same sum, and the two programs' maxima, exponentials, sums and quotients are spelt alike, so both compute one
  function of the inputs (Proof/AttnSpec.lean) — by reindexing sums only; no finiteness of the inputs is used.

  The three frames: the kernel's at both readings by running its body at a generic grid point in its two cases, with
  the scratch arrays' contents carried in the region's invariant (Proof/KernelFrame.lean, Proof/IdealFrame.lean); the
  reference's from its run (Proof/RefRun.lean). The idealization rewrote nothing, so there is nothing to preserve.
  The value claim: the kernel's result arrays, tile by tile (Proof/IdealPieces.lean, IdealPay.lean, IdealTile.lean, IdealArrays.lean), and
  the reference's, operation by operation (Proof/RefValue.lean), are that one function.
-/
import proofs.«120919_j15779709846002_2_alg».proof.Defs
import proofs.«120919_j15779709846002_2_alg».proof.Proof.Gen.Kernel
import proofs.«120919_j15779709846002_2_alg».proof.Proof.Gen.KernelIdeal
import proofs.«120919_j15779709846002_2_alg».proof.Proof.Gen.ReferenceIdeal
import proofs.«120919_j15779709846002_2_alg».proof.Proof.Gen.Pre_finite_inputs
import proofs.«120919_j15779709846002_2_alg».proof.Proof.KernelFrame
import proofs.«120919_j15779709846002_2_alg».proof.Proof.IdealArrays
import proofs.«120919_j15779709846002_2_alg».proof.Proof.RefRun
import proofs.«120919_j15779709846002_2_alg».proof.Proof.RefValue
import Idealize.ShloMosaic.Adequacy
import Idealize.ShloMosaic.Init

noncomputable section

namespace Cert.Proof

open Idealize.ShloMosaic Idealize.SL.Sem Cert.Attn

/-- The kernel as printed runs, and leaves its two inputs as they were. -/
theorem frame_k : Cert.frame_Kernel := fun m ρ _ => Cert.Kernel.Body.frame m ρ

/-- So does the kernel read on the extended reals. -/
theorem frame_ki : Cert.frame_KernelIdeal := fun m ρ _ => Cert.KernelIdeal.Body.frame m ρ

/-- The reference runs and leaves its inputs as they were: its run, the results dropped. -/
theorem frame_ri : Cert.frame_ReferenceIdeal := fun m ρ _ =>
  (θ_run Cert.ReferenceIdeal.defs _ _).mono (fun _ h c => ⟨(h c).2.2.1, (h c).2.2.2⟩) (Cert.ReferenceIdeal.RefRun.run (F := Ideal) m ρ)

/-- The idealization rewrote no operation. -/
theorem preserves : Cert.preserves_Kernel_KernelIdeal := trivial

/-- From memories agreeing on the inputs both programs end with the specification's two arrays of those inputs. -/
theorem algebraic : Cert.algebraic_KernelIdeal_ReferenceIdeal := by
  intro m ρ m' ρ' _ hagree
  refine ⟨_, _, Cert.KernelIdeal.Tile.run m ρ, ?_⟩
  refine (θ_run Cert.ReferenceIdeal.defs _ _).mono (fun _ h c => ?_) (Cert.ReferenceIdeal.RefRun.run (F := Ideal) m' ρ')
  obtain ⟨e27, e30, ea0, ea1⟩ := h c
  refine ⟨e27.trans ?_, e30.trans ?_, ea0, ea1⟩
  · rw [Cert.ReferenceIdeal.RefValue.v27_eq, (hagree c).1, (hagree c).2]
  · rw [Cert.ReferenceIdeal.RefValue.v30_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
